-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S4x4096x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x4096x1024 : Shape := ⟨3, ![4, 4096, 1024]⟩
abbrev S1024x1024 : Shape := ⟨2, ![1024, 1024]⟩
abbrev S1024x2048 : Shape := ⟨2, ![1024, 2048]⟩
abbrev S4x1024x1024 : Shape := ⟨3, ![4, 1024, 1024]⟩
abbrev S1x1024x1024 : Shape := ⟨3, ![1, 1024, 1024]⟩
abbrev S1024 : Shape := ⟨1, ![1024]⟩
abbrev S1024x1 : Shape := ⟨2, ![1024, 1]⟩
abbrev S1x512x1024 : Shape := ⟨3, ![1, 512, 1024]⟩
abbrev S512x1024 : Shape := ⟨2, ![512, 1024]⟩

abbrev nBuf : Space → Nat
  | .hbm => 16
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | .hbm, ⟨7, _⟩ => ⟨S1024x1024, .f32⟩
  | .hbm, ⟨8, _⟩ => ⟨S1024x1024, .bf16⟩
  | .hbm, ⟨9, _⟩ => ⟨S1024x2048, .bf16⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S4x1024x1024, .f32⟩
  | .hbm, ⟨15, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x2048, .bf16⟩
  | .local _ .vmem, ⟨3, _⟩ => ⟨S1x1024x1024, .f32⟩
  | .local _ .vmem, ⟨4, _⟩ => ⟨S1x1024x1024, .f32⟩
  | .local _ .vmem, ⟨5, _⟩ => ⟨S1024x1024, .f32⟩
  | .local _ .vmem, ⟨6, _⟩ => ⟨S1x512x1024, .f32⟩
  | .local _ .vmem, ⟨7, _⟩ => ⟨S1x512x1024, .f32⟩
  | .local _ .vmem, ⟨8, _⟩ => ⟨S1024x1024, .bf16⟩
  | .local _ .vmem, ⟨9, _⟩ => ⟨S1024x1024, .bf16⟩
  | .local _ .vmem, ⟨10, _⟩ => ⟨S1x1024x1024, .f32⟩
  | .local _ .vmem, ⟨11, _⟩ => ⟨S1x1024x1024, .f32⟩
  | .local _ .vmem, ⟨12, _⟩ => ⟨S1x512x1024, .f32⟩
  | .local _ .vmem, ⟨13, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_10 : BitVec 32 := 0#32
  let v21 : BitVec 1 := Scalar.cmpi .ne v20 c0_i32_10
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  transposes_S1024x1024_S1024x1024_1_0 : S1024x1024.Transposes [1, 0] S1024x1024
  bitsLt_bf16_f32 : FTy.bits .bf16 < FTy.bits .f32
  concatenates_S1024x1024_S1024x1024_S1024x2048_d1 : Shape.Concatenates [S1024x1024, S1024x1024] S1024x2048 1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  slices_S1024x2048_o0_0_S1024x1024 : S1024x2048.Slices ![0, 0] S1024x1024
  slices_S1024x2048_o0_1024_S1024x1024 : S1024x2048.Slices ![0, 1024] S1024x1024
  reduces_S1024x1024_S1024 : S1024x1024.Reduces [1] S1024
  shapeCasts_S1024_S1024x1 : S1024.ShapeCasts S1024x1
  broadcasts_S1024x1_S1024x1024 : S1024x1.Broadcasts S1024x1024
  shapeCasts_S1024x1024_S1x1024x1024 : S1024x1024.ShapeCasts S1x1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  dot_S1024x1024_S1024x2048_S1024x2048_1_0_0_1_n_n_wf : DotDims.WF S1024x1024 S1024x2048 S1024x2048 [1] [0] [0] [1] [] []
  dot_S1024x1024_S1024x1024_S1024x1024_0_0_1_1_n_n_wf : DotDims.WF S1024x1024 S1024x1024 S1024x1024 [0] [0] [1] [1] [] []
  dot_S512x1024_S1024x1024_S512x1024_1_0_0_1_n_n_wf : DotDims.WF S512x1024 S1024x1024 S512x1024 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x4096x1024.size a
  hwx0_0 : ∀ i : grid0.Coords, EltTy.bits .f32 = 32 ∨ (Rect.block (s := S4x4096x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S4x1024x1024.size a
  hwx0_2 : ∀ i : grid0.Coords, EltTy.bits .f32 = 32 ∨ (Rect.block (s := S4x1024x1024) S1x1024x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x4096x1024.size a
  hwx1_0 : ∀ i : grid1.Coords, EltTy.bits .f32 = 32 ∨ (Rect.block (s := S4x4096x1024) S1x512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .bf16 = 32 ∨ (Rect.block (s := S1024x1024) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x1024x1024.size a
  hwx1_3 : ∀ i : grid1.Coords, EltTy.bits .f32 = 32 ∨ (Rect.block (s := S4x1024x1024) S1x1024x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x1024.size a ≤ S4x4096x1024.size a
  hwx1_4 : ∀ i : grid1.Coords, EltTy.bits .f32 = 32 ∨ (Rect.block (s := S4x4096x1024) S1x512x1024.size (cc1_transform_4 i) (hinb1_4 i)).WholeWords (EltTy.packing .f32)

variable [Facts₀]

def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf
def dot_S1024x1024_S1024x1024_S1024x1024_0_0_1_1_n_n : DotDims S1024x1024 S1024x1024 S1024x1024 where
  lhsContracting := [0]
  rhsContracting := [0]
  lhsNonContracting := [1]
  rhsNonContracting := [1]
  lhsBatch := []
  rhsBatch := []
  wf := dot_S1024x1024_S1024x1024_S1024x1024_0_0_1_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S4x1024x1024 : Shape := ⟨3, ![4, 1024, 1024]⟩
abbrev S_ : Shape := ⟨0, ![]⟩
abbrev S4x1024 : Shape := ⟨2, ![4, 1024]⟩
abbrev S4x1024x1 : Shape := ⟨3, ![4, 1024, 1]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4x4096x1024, .f32⟩
  | .hbm, ⟨6, _⟩ => ⟨S4x4096x1024, .f32⟩
  | .hbm, ⟨7, _⟩ => ⟨S4x4096x1024, .f32⟩
  | .hbm, ⟨8, _⟩ => ⟨S4x1024x1024, .f32⟩
  | .hbm, ⟨9, _⟩ => ⟨S_, .f32⟩
  | .hbm, ⟨10, _⟩ => ⟨S_, .f32⟩
  | .hbm, ⟨11, _⟩ => ⟨S4x1024x1024, .f32⟩
  | .hbm, ⟨12, _⟩ => ⟨S4x1024x1024, .f32⟩
  | .hbm, ⟨13, _⟩ => ⟨S_, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024x1, .f32⟩
  | .hbm, ⟨19, _⟩ => ⟨S4x1024x1024, .f32⟩
  | .hbm, ⟨20, _⟩ => ⟨S4x1024x1024, .f32⟩
  | .hbm, ⟨21, _⟩ => ⟨S4x1024x1024, .f32⟩
  | .hbm, ⟨22, _⟩ => ⟨S_, .f32⟩
  | .hbm, ⟨23, _⟩ => ⟨S4x1024, .f32⟩
  | .hbm, ⟨24, _⟩ => ⟨S4x1024x1, .f32⟩
  | .hbm, ⟨25, _⟩ => ⟨S4x1024x1024, .f32⟩
  | .hbm, ⟨26, _⟩ => ⟨S4x1024x1024, .f32⟩
  | .hbm, ⟨27, _⟩ => ⟨S4x4096x1024, .f32⟩
  | .hbm, ⟨28, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  bcast_S_S4x1024x1024 : S_.BroadcastsInDim S4x1024x1024 (![] : Fin 0 → Fin S4x1024x1024.rank)
  reducesTo_S4x1024x1024_S4x1024_d2 : S4x1024x1024.ReducesTo [2] S4x1024
  h_S_ : 0 < S_.numel
  bcast_S_S4x1024 : S_.BroadcastsInDim S4x1024 (![] : Fin 0 → Fin S4x1024.rank)
  bcast_S4x1024_S4x1024x1_0_1 : S4x1024.BroadcastsInDim S4x1024x1 (![0, 1] : Fin 2 → Fin S4x1024x1.rank)
  bcast_S4x1024x1_S4x1024x1024_0_1_2 : S4x1024x1.BroadcastsInDim S4x1024x1024 (![0, 1, 2] : Fin 3 → Fin S4x1024x1024.rank)
  dot_S4x4096x1024_S1024x1024_S4x4096x1024_2_1_01_0_n_n_wf : DotDims.WF S4x4096x1024 S1024x1024 S4x4096x1024 [2] [1] [0, 1] [0] [] []
  dot_S4x4096x1024_S4x4096x1024_S4x1024x1024_1_1_2_2_0_0_wf : DotDims.WF S4x4096x1024 S4x4096x1024 S4x1024x1024 [1] [1] [2] [2] [0] [0]
  dot_S4x4096x1024_S4x1024x1024_S4x4096x1024_2_2_1_1_0_0_wf : DotDims.WF S4x4096x1024 S4x1024x1024 S4x4096x1024 [2] [2] [1] [1] [0] [0]

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x4096x1024_S4x4096x1024_S4x1024x1024_1_1_2_2_0_0 : DotDims S4x4096x1024 S4x4096x1024 S4x1024x1024 where
  lhsContracting := [1]
  rhsContracting := [1]
  lhsNonContracting := [2]
  rhsNonContracting := [2]
  lhsBatch := [0]
  rhsBatch := [0]
  wf := dot_S4x4096x1024_S4x4096x1024_S4x1024x1024_1_1_2_2_0_0_wf
def dot_S4x4096x1024_S4x1024x1024_S4x4096x1024_2_2_1_1_0_0 : DotDims S4x4096x1024 S4x1024x1024 S4x4096x1024 where
  lhsContracting := [2]
  rhsContracting := [2]
  lhsNonContracting := [1]
  rhsNonContracting := [1]
  lhsBatch := [0]
  rhsBatch := [0]
  wf := dot_S4x4096x1024_S4x1024x1024_S4x4096x1024_2_2_1_1_0_0_wf

class Facts : Prop extends Facts₀ where

variable [Facts]
-- ==== Proof.Kernel.Region0Runs.lean ====
/-
  The first kernel region (the fused query/key projection, their product accumulated over the sequence tiles in a
  scratch matrix, and on the batch's last tile the scaled row softmax), one grid point at a time. The grid is
  batch × sequence tile, four tiles to a batch. The body branches twice on the tile's position: at a batch's first
  tile it zeroes the scratch before accumulating; at its last tile it also stores the softmax of the scaled scratch
  into the output window, which at every other point it does not touch (there the window is idle and not written
  back). So a point is in one of three cases; each case's run of the body is stated with the pieces its stores leave
  found by the run itself; the scratch's contents after each point are defined by recursion on the point and carried
  in the region's invariant. Everything is stated at a parameter `V`, the buffers' contents when the region is
  entered.
-/
import proofs.«124782_j49941879718277_2_alg».proof.Proof.Gen.Kernel.Launch
import proofs.«124782_j49941879718277_2_alg».proof.Proof.Gen.Kernel.Skeleton
import proofs.«124782_j49941879718277_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of its array at point `t`, the arrays as the region finds them. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The sequence tile of `x`: an input whose block the body leaves in place holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The fused projection weights, fetched once: the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions, in closed form over the grid -/

/-- "This is a batch's first sequence tile", as the body computes it from the grid coordinates. -/
abbrev isFirstTile (i : grid0.Coords) : Prop := (Scalar.cmpi .ne (Scalar.extui (Scalar.cmpi .eq (BitVec.ofNat 32 (i 1).val) 0#32)) 0#32) = 1#1
theorem isFirstTile_iff : ∀ t : Fin cfg0.N, isFirstTile (grid0.coords t) ↔ t.val % 4 = 0 :=
  (by decide +kernel : ∀ t : Fin grid0.N, isFirstTile (grid0.coords t) ↔ t.val % 4 = 0)
/-- "This is a batch's last sequence tile". -/
abbrev isLastTile (i : grid0.Coords) : Prop := k0_cond2 i = 1#1
theorem isLastTile_iff : ∀ t : Fin cfg0.N, isLastTile (grid0.coords t) ↔ t.val % 4 = 3 :=
  (by decide +kernel : ∀ t : Fin grid0.N, isLastTile (grid0.coords t) ↔ t.val % 4 = 3)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
/-- Off a batch's last tile the output window is idle and is not written back. -/
theorem idle0_2 : ∀ t : Fin cfg0.N, ¬isLastTile (grid0.coords t) → cfg0.idle 2 (grid0.coords t) = true := by decide +kernel
theorem noFlush0_2 : ∀ t : Fin cfg0.N, ¬isLastTile (grid0.coords t) → (cfg0.win 2).flush t = false := by decide +kernel
/-- On it the window is live. -/
theorem live0_2 : ∀ t : Fin cfg0.N, isLastTile (grid0.coords t) → cfg0.idle 2 (grid0.coords t) = false := by decide +kernel

/-! ## The memrefs the body is called with -/

abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1024 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev accM : Memref sig .tc .vmem S1024x1024 .f32 := Memref.whole cc0_scratch0
/-- Views through which the accumulator's and the output buffer's contents are stated. -/
abbrev accV : View sig .tc .vmem S1024x1024 .f32 := accM.view
abbrev outV : View sig .tc .vmem S1x1024x1024 .f32 := (Memref.whole cc0_stg2_0 : Memref sig .tc .vmem S1x1024x1024 .f32).view

/-- The core's scoped buffers that are neither a staging buffer of this region nor the accumulator (the second
    region's staging buffers), each at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The class invariant with the accumulator split off as an owned memref. -/
theorem PhiA0_eq (c : Dev nD) :
    (Pipeline.ΦA spec0 c : sProp 𝕄)
      = iprop(iprop((∃ d, owns (c : Thread nD τ) accM fullShare d) ∗ otherScoped (F := F) c) ∗ (∃ r, prngReg c r)) := by
  unfold Pipeline.ΦA otherScoped; rw [scopedRest0_eq]; simp only [accM, owns_whole]; try rfl

/-! ## The body's run, case by case -/

set_option maxHeartbeats 4000000 in
/-- A batch's FIRST tile: the accumulator, at anything, is zeroed and then receives the tile's product; the output
    window is not touched. The pieces the accumulator ends with are what the run finds. -/
noncomputable def runFirst (c : Dev nD) (i : grid0.Coords) (arg2 : Memref sig .tc .vmem S1x1024x1024 .f32) (harg2 : arg2.IsWhole) (arg3 : Memref sig .tc .vmem S1024x2048 .bf16) (harg3 : arg3.IsWhole) (arg4 : Memref sig .tc .vmem S1x1024x1024 .f32) (harg4 : arg4.IsWhole) (arg5 : Memref sig .tc .vmem S1024x1024 .f32) (harg5 : arg5.IsWhole) (hc0 : isFirstTile i) (hc1 : ¬isLastTile i)
    (x0 : Vec F S1x1024x1024 .f32) (x1 : Vec F S1024x2048 .bf16) :
    { LS : List (View.Piece (Elt F) S1024x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg5 fullShare d)
            ∗ (iprop(owns (c : Thread nD τ) arg2 fullShare x0 ∗ owns (c : Thread nD τ) arg3 fullShare x1 ∗ (∃ f, arg5.view.loc (c : Thread nD τ) ↦[arg5.view.set]{fullShare} arg5.view.writes (Elt F) f LS)) -∗ K ⟨⟩))
          ⊢ wp frame (wpE (defs₀ (F := F)) Variants.none c none) E (cc0__qk_kernel i arg2 harg2 arg3 harg3 arg4 harg4 arg5 harg5) K } := by
  refine ⟨?_, fun E K => ?run⟩
  case run =>
    simp only [cc0__qk_kernel_eq_skeleton]; unfold cc0__qk_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 4000000 in
/-- A MIDDLE tile: the accumulator, at what the point before left, receives the tile's product; the output window is
    not touched. -/
noncomputable def runMid (c : Dev nD) (i : grid0.Coords) (arg2 : Memref sig .tc .vmem S1x1024x1024 .f32) (harg2 : arg2.IsWhole) (arg3 : Memref sig .tc .vmem S1024x2048 .bf16) (harg3 : arg3.IsWhole) (arg4 : Memref sig .tc .vmem S1x1024x1024 .f32) (harg4 : arg4.IsWhole) (arg5 : Memref sig .tc .vmem S1024x1024 .f32) (harg5 : arg5.IsWhole) (hc0 : ¬isFirstTile i) (hc1 : ¬isLastTile i)
    (x0 : Vec F S1x1024x1024 .f32) (x1 : Vec F S1024x2048 .bf16) (xs : Vec F S1024x1024 .f32) :
    { LS : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg5 fullShare xs
            ∗ (iprop(owns (c : Thread nD τ) arg2 fullShare x0 ∗ owns (c : Thread nD τ) arg3 fullShare x1 ∗ (∃ f, arg5.view.loc (c : Thread nD τ) ↦[arg5.view.set]{fullShare} arg5.view.writes (Elt F) f LS)) -∗ K ⟨⟩))
          ⊢ wp frame (wpE (defs₀ (F := F)) Variants.none c none) E (cc0__qk_kernel i arg2 harg2 arg3 harg3 arg4 harg4 arg5 harg5) K } := by
  refine ⟨?_, fun E K => ?run⟩
  case run =>
    simp only [cc0__qk_kernel_eq_skeleton]; unfold cc0__qk_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 4000000 in
/-- A batch's LAST tile: the accumulator receives the tile's product, and the output window's buffer (at anything:
    the body's load of it is dead) the softmax of the scaled accumulator. -/
noncomputable def runLast (c : Dev nD) (i : grid0.Coords) (arg2 : Memref sig .tc .vmem S1x1024x1024 .f32) (harg2 : arg2.IsWhole) (arg3 : Memref sig .tc .vmem S1024x2048 .bf16) (harg3 : arg3.IsWhole) (arg4 : Memref sig .tc .vmem S1x1024x1024 .f32) (harg4 : arg4.IsWhole) (arg5 : Memref sig .tc .vmem S1024x1024 .f32) (harg5 : arg5.IsWhole) (hc0 : ¬isFirstTile i) (hc1 : isLastTile i)
    (x0 : Vec F S1x1024x1024 .f32) (x1 : Vec F S1024x2048 .bf16) (xs : Vec F S1024x1024 .f32) :
    Σ' (L2 : List (View.Piece (Elt F) S1x1024x1024 .f32)), { LS : List (View.Piece (Elt F) S1024x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__qk_kernel i arg2 harg2 arg3 harg3 arg4 harg4 arg5 harg5) K } := by
  refine ⟨?_, ?_, fun E K => ?run⟩
  case run =>
    simp only [cc0__qk_kernel_eq_skeleton]; unfold cc0__qk_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Hand

end
-- ==== Proof.Kernel.Region0.lean ====
/-
  The first kernel region, continued: what each case's run leaves in the accumulator and in the output window's
  buffer (its found pieces cover the buffer, so the contents do not depend on what was there before), the
  accumulator's and the output buffer's contents after every grid point by recursion on the point, the region's
  invariant (the accumulator at what the point before left), the proof data and the body obligation.
-/
import proofs.«124782_j49941879718277_2_alg».proof.Proof.Gen.Kernel.Launch
import proofs.«124782_j49941879718277_2_alg».proof.Proof.Gen.Kernel.Skeleton
import proofs.«124782_j49941879718277_2_alg».proof.Proof.Gen.Kernel.Points
import proofs.«124782_j49941879718277_2_alg».proof.Proof.Kernel.Region0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem coverFirst (c : Dev nD) (i : grid0.Coords) (arg2 : Memref sig .tc .vmem S1x1024x1024 .f32) (harg2 : arg2.IsWhole) (arg3 : Memref sig .tc .vmem S1024x2048 .bf16) (harg3 : arg3.IsWhole) (arg4 : Memref sig .tc .vmem S1x1024x1024 .f32) (harg4 : arg4.IsWhole) (arg5 : Memref sig .tc .vmem S1024x1024 .f32) (harg5 : arg5.IsWhole) (hc0 : isFirstTile i) (hc1 : ¬isLastTile i)
    (x0 : Vec F S1x1024x1024 .f32) (x1 : Vec F S1024x2048 .bf16) (y : S1024x1024.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S1024x1024.size (by sl_kernel_rfl) y
/-- The accumulator after a batch's first tile. -/
def accFirst (c : Dev nD) (i : grid0.Coords) (arg2 : Memref sig .tc .vmem S1x1024x1024 .f32) (harg2 : arg2.IsWhole) (arg3 : Memref sig .tc .vmem S1024x2048 .bf16) (harg3 : arg3.IsWhole) (arg4 : Memref sig .tc .vmem S1x1024x1024 .f32) (harg4 : arg4.IsWhole) (arg5 : Memref sig .tc .vmem S1024x1024 .f32) (harg5 : arg5.IsWhole) (hc0 : isFirstTile i) (hc1 : ¬isLastTile i)
    (x0 : Vec F S1x1024x1024 .f32) (x1 : Vec F S1024x2048 .bf16) : Vec F S1024x1024 .f32 :=
  accV.read (Elt F) (accV.writes (Elt F) accV.junk (runFirst c i arg2 harg2 arg3 harg3 arg4 harg4 arg5 harg5 hc0 hc1 x0 x1).1)

theorem coverMid (c : Dev nD) (i : grid0.Coords) (arg2 : Memref sig .tc .vmem S1x1024x1024 .f32) (harg2 : arg2.IsWhole) (arg3 : Memref sig .tc .vmem S1024x2048 .bf16) (harg3 : arg3.IsWhole) (arg4 : Memref sig .tc .vmem S1x1024x1024 .f32) (harg4 : arg4.IsWhole) (arg5 : Memref sig .tc .vmem S1024x1024 .f32) (harg5 : arg5.IsWhole) (hc0 : ¬isFirstTile i) (hc1 : ¬isLastTile i)
    (x0 : Vec F S1x1024x1024 .f32) (x1 : Vec F S1024x2048 .bf16) (xs : Vec F S1024x1024 .f32) (y : S1024x1024.Idx) :
    ∃ pc ∈ (runMid c i arg2 harg2 arg3 harg3 arg4 harg4 arg5 harg5 hc0 hc1 x0 x1 xs).1, y ∈ pc.1.set :=
  View.cover_of_tiledL (runMid c i arg2 harg2 arg3 harg3 arg4 harg4 arg5 harg5 hc0 hc1 x0 x1 xs).1 S1024x1024.size (by sl_kernel_rfl) y
/-- The accumulator after a middle tile, from what the point before left. -/
def accMid (c : Dev nD) (i : grid0.Coords) (arg2 : Memref sig .tc .vmem S1x1024x1024 .f32) (harg2 : arg2.IsWhole) (arg3 : Memref sig .tc .vmem S1024x2048 .bf16) (harg3 : arg3.IsWhole) (arg4 : Memref sig .tc .vmem S1x1024x1024 .f32) (harg4 : arg4.IsWhole) (arg5 : Memref sig .tc .vmem S1024x1024 .f32) (harg5 : arg5.IsWhole) (hc0 : ¬isFirstTile i) (hc1 : ¬isLastTile i)
    (x0 : Vec F S1x1024x1024 .f32) (x1 : Vec F S1024x2048 .bf16) (xs : Vec F S1024x1024 .f32) : Vec F S1024x1024 .f32 :=
  accV.read (Elt F) (accV.writes (Elt F) accV.junk (runMid c i arg2 harg2 arg3 harg3 arg4 harg4 arg5 harg5 hc0 hc1 x0 x1 xs).1)

theorem coverLastAcc (c : Dev nD) (i : grid0.Coords) (arg2 : Memref sig .tc .vmem S1x1024x1024 .f32) (harg2 : arg2.IsWhole) (arg3 : Memref sig .tc .vmem S1024x2048 .bf16) (harg3 : arg3.IsWhole) (arg4 : Memref sig .tc .vmem S1x1024x1024 .f32) (harg4 : arg4.IsWhole) (arg5 : Memref sig .tc .vmem S1024x1024 .f32) (harg5 : arg5.IsWhole) (hc0 : ¬isFirstTile i) (hc1 : isLastTile i)
    (x0 : Vec F S1x1024x1024 .f32) (x1 : Vec F S1024x2048 .bf16) (xs : Vec F S1024x1024 .f32) (y : S1024x1024.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S1024x1024.size (by sl_kernel_rfl) y
/-- The accumulator after a batch's last tile. -/
def accLast (c : Dev nD) (i : grid0.Coords) (arg2 : Memref sig .tc .vmem S1x1024x1024 .f32) (harg2 : arg2.IsWhole) (arg3 : Memref sig .tc .vmem S1024x2048 .bf16) (harg3 : arg3.IsWhole) (arg4 : Memref sig .tc .vmem S1x1024x1024 .f32) (harg4 : arg4.IsWhole) (arg5 : Memref sig .tc .vmem S1024x1024 .f32) (harg5 : arg5.IsWhole) (hc0 : ¬isFirstTile i) (hc1 : isLastTile i)
    (x0 : Vec F S1x1024x1024 .f32) (x1 : Vec F S1024x2048 .bf16) (xs : Vec F S1024x1024 .f32) : Vec F S1024x1024 .f32 :=
  accV.read (Elt F) (accV.writes (Elt F) accV.junk (runLast c i arg2 harg2 arg3 harg3 arg4 harg4 arg5 harg5 hc0 hc1 x0 x1 xs).2.1)
theorem coverLastOut (c : Dev nD) (i : grid0.Coords) (arg2 : Memref sig .tc .vmem S1x1024x1024 .f32) (harg2 : arg2.IsWhole) (arg3 : Memref sig .tc .vmem S1024x2048 .bf16) (harg3 : arg3.IsWhole) (arg4 : Memref sig .tc .vmem S1x1024x1024 .f32) (harg4 : arg4.IsWhole) (arg5 : Memref sig .tc .vmem S1024x1024 .f32) (harg5 : arg5.IsWhole) (hc0 : ¬isFirstTile i) (hc1 : isLastTile i)
    (x0 : Vec F S1x1024x1024 .f32) (x1 : Vec F S1024x2048 .bf16) (xs : Vec F S1024x1024 .f32) (y : S1x1024x1024.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S1x1024x1024.size (by sl_kernel_rfl) y
/-- The output window's buffer after a batch's last tile. -/
def outLast (c : Dev nD) (i : grid0.Coords) (arg2 : Memref sig .tc .vmem S1x1024x1024 .f32) (harg2 : arg2.IsWhole) (arg3 : Memref sig .tc .vmem S1024x2048 .bf16) (harg3 : arg3.IsWhole) (arg4 : Memref sig .tc .vmem S1x1024x1024 .f32) (harg4 : arg4.IsWhole) (arg5 : Memref sig .tc .vmem S1024x1024 .f32) (harg5 : arg5.IsWhole) (hc0 : ¬isFirstTile i) (hc1 : isLastTile i)
    (x0 : Vec F S1x1024x1024 .f32) (x1 : Vec F S1024x2048 .bf16) (xs : Vec F S1024x1024 .f32) : Vec F S1x1024x1024 .f32 :=
  outV.read (Elt F) (outV.writes (Elt F) outV.junk (runLast c i arg2 harg2 arg3 harg3 arg4 harg4 arg5 harg5 hc0 hc1 x0 x1 xs).1)
/-- A placeholder for the output window's buffer at the points where it is idle: nothing consults it there (the window
    is neither written back nor read at the next point). -/
def outIdle : Vec F S1x1024x1024 .f32 := outV.read (Elt F) outV.junk

/-! ## The same at a grid point, on the memrefs and blocks the pipeline hands the body there -/

def accFirstAt (c : Dev nD) (t : Fin cfg0.N) (h0 : t.val % 4 = 0) (h1 : ¬t.val % 4 = 3) : Vec F S1024x1024 .f32 :=
  accFirst c (grid0.coords t) (ms0_0 t) (hs0_0 t) (ms0_1 t) (hs0_1 t) (ms0_2 t) (hs0_2 t) accM (Memref.isWhole_whole _) ((isFirstTile_iff t).mpr h0) (fun h => h1 ((isLastTile_iff t).mp h)) (iblk0 V c 0 t) (iblk0 V c 1 t)
def accMidAt (c : Dev nD) (t : Fin cfg0.N) (h0 : ¬t.val % 4 = 0) (h1 : ¬t.val % 4 = 3) (xs : Vec F S1024x1024 .f32) : Vec F S1024x1024 .f32 :=
  accMid c (grid0.coords t) (ms0_0 t) (hs0_0 t) (ms0_1 t) (hs0_1 t) (ms0_2 t) (hs0_2 t) accM (Memref.isWhole_whole _) (fun h => h0 ((isFirstTile_iff t).mp h)) (fun h => h1 ((isLastTile_iff t).mp h)) (iblk0 V c 0 t) (iblk0 V c 1 t) xs
def accLastAt (c : Dev nD) (t : Fin cfg0.N) (h0 : ¬t.val % 4 = 0) (h1 : t.val % 4 = 3) (xs : Vec F S1024x1024 .f32) : Vec F S1024x1024 .f32 :=
  accLast c (grid0.coords t) (ms0_0 t) (hs0_0 t) (ms0_1 t) (hs0_1 t) (ms0_2 t) (hs0_2 t) accM (Memref.isWhole_whole _) (fun h => h0 ((isFirstTile_iff t).mp h)) ((isLastTile_iff t).mpr h1) (iblk0 V c 0 t) (iblk0 V c 1 t) xs
def outLastAt (c : Dev nD) (t : Fin cfg0.N) (h0 : ¬t.val % 4 = 0) (h1 : t.val % 4 = 3) (xs : Vec F S1024x1024 .f32) : Vec F S1x1024x1024 .f32 :=
  outLast c (grid0.coords t) (ms0_0 t) (hs0_0 t) (ms0_1 t) (hs0_1 t) (ms0_2 t) (hs0_2 t) accM (Memref.isWhole_whole _) (fun h => h0 ((isFirstTile_iff t).mp h)) ((isLastTile_iff t).mpr h1) (iblk0 V c 0 t) (iblk0 V c 1 t) xs

/-! ## After each point -/

/-- What the output window's buffer and the accumulator hold after the body at position `n` (a pair): the case the
    position is in, the accumulator it starts from what position `n - 1` left. -/
def stateAt (c : Dev nD) : (n : ℕ) → n < cfg0.N → Vec F S1x1024x1024 .f32 × Vec F S1024x1024 .f32
  | 0, hn => (outIdle, accFirstAt V c ⟨0, hn⟩ (Nat.zero_mod _) (show ¬(0 : ℕ) % 4 = 3 by decide))
  | n + 1, hn =>
    if h0 : (n + 1) % 4 = 0 then
      (outIdle, accFirstAt V c ⟨n + 1, hn⟩ h0 (fun h => by have h' : (n + 1) % 4 = 3 := h; omega))
    else
      if h1 : (n + 1) % 4 = 3 then
        (outLastAt V c ⟨n + 1, hn⟩ h0 h1 (stateAt c n (Nat.lt_of_succ_lt hn)).2, accLastAt V c ⟨n + 1, hn⟩ h0 h1 (stateAt c n (Nat.lt_of_succ_lt hn)).2)
      else
        (outIdle, accMidAt V c ⟨n + 1, hn⟩ h0 h1 (stateAt c n (Nat.lt_of_succ_lt hn)).2)

theorem stateAt_first (c : Dev nD) (t : Fin cfg0.N) (h0 : t.val % 4 = 0) (h1 : ¬t.val % 4 = 3) :
    stateAt V c t.val t.isLt = (outIdle, accFirstAt V c t h0 h1) := by
  obtain ⟨n, hn⟩ := t
  cases n with
  | zero => exact rfl
  | succ n => exact (dif_pos h0).trans rfl

theorem stateAt_mid (c : Dev nD) (t : Fin cfg0.N) (h0 : ¬t.val % 4 = 0) (h1 : ¬t.val % 4 = 3) :
    stateAt V c t.val t.isLt = (outIdle, accMidAt V c t h0 h1 (stateAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem stateAt_last (c : Dev nD) (t : Fin cfg0.N) (h0 : ¬t.val % 4 = 0) (h1 : t.val % 4 = 3) :
    stateAt V c t.val t.isLt = (outLastAt V c t h0 h1 (stateAt V c (t.val - 1) (Nat.lt_of_le_of_lt (Nat.sub_le _ _) t.isLt)).2,
      accLastAt V c t h0 h1 (stateAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant -/

/-- Before position `n`: at the region's entry the class invariant (every scoped buffer that is no staging buffer of
    this region at anything, the generator register at some state); afterwards the same with the accumulator at what
    the point before left. -/
def PhiS (c : Dev nD) : (n : ℕ) → n ≤ cfg0.N → sProp 𝕄
  | 0, _ => Pipeline.ΦA spec0 c
  | n + 1, hn => iprop(iprop(owns (c : Thread nD τ) accM fullShare ((stateAt V c n hn).2) ∗ otherScoped (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accM fullShare ((stateAt V c n hn).2) ∗ otherScoped (F := F) c) ∗ (∃ r, prngReg c r)) := rfl
theorem PhiS_pos (c : Dev nD) (n : ℕ) (h : n ≤ cfg0.N) (hz : n ≠ 0) :
    PhiS V c n h = iprop(iprop(owns (c : Thread nD τ) accM fullShare ((stateAt V c (n - 1) (by omega)).2) ∗ otherScoped (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (stateAt V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (stateAt V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' buffers hold their blocks; the point's position among its batch's tiles says
    which case it is in; the invariant hands the body the accumulator at what the point before left (at anything at
    the region's first point) and takes it back at this point's contents; where the output window is idle its buffer
    is kept aside untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  have hN : t.val < 16 := lt_of_lt_of_eq t.isLt (show cfg0.N = 16 from N_0)
  by_cases h0 : t.val % 4 = 0
  · have h1 : ¬t.val % 4 = 3 := by omega
    rw [Dat.leavesExact_idle (dat0 V c) 2 t (idle0_2 t (fun h => h1 ((isLastTile_iff t).mp h))) (noFlush0_2 t (fun h => h1 ((isLastTile_iff t).mp h)))]
    rw [stateAt_first V c t h0 h1]
    unfold accFirstAt accFirst; (try dsimp only)
    by_cases hz : t.val = 0
    · rw [PhiS_castSucc V c t, PhiS_zero V c _ _ hz, PhiA0_eq]
      iintro ⟨⟨⟨HS, Hr⟩, Hg⟩, Ho, ⟨%d0, H0⟩, ⟨%d1, H1⟩, ⟨%d2, H2⟩⟩
      iapply ((runFirst c (grid0.coords t) _ _ _ _ _ _ _ _ ((isFirstTile_iff t).mpr h0) (fun h => h1 ((isLastTile_iff t).mp h)) (iblk0 V c 0 t) (iblk0 V c 1 t)).2 Set.univ _)
      isplitl [H0]; · iexact H0
      isplitl [H1]; · iexact H1
      isplitl [HS]; · iexact HS
      iintro ⟨H0, H1, ⟨%es, HS⟩⟩
      isplitl [HS Hr Hg]
      · isplitl [HS Hr]
        · isplitl [HS]
          · unfold owns; iexists _; isplitr
            swap; · iexact HS
            ipureintro; exact View.read_writes_of_cover _ _ _ _ _ (coverFirst c _ _ _ _ _ _ _ _ _ _ _ _ _)
          iexact Hr
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS, Hr⟩, Hg⟩, Ho, ⟨%d0, H0⟩, ⟨%d1, H1⟩, ⟨%d2, H2⟩⟩
      iapply ((runFirst c (grid0.coords t) _ _ _ _ _ _ _ _ ((isFirstTile_iff t).mpr h0) (fun h => h1 ((isLastTile_iff t).mp h)) (iblk0 V c 0 t) (iblk0 V c 1 t)).2 Set.univ _)
      isplitl [H0]; · iexact H0
      isplitl [H1]; · iexact H1
      isplitl [HS]; · iexists _; iexact HS
      iintro ⟨H0, H1, ⟨%es, HS⟩⟩
      isplitl [HS Hr Hg]
      · isplitl [HS Hr]
        · isplitl [HS]
          · unfold owns; iexists _; isplitr
            swap; · iexact HS
            ipureintro; exact View.read_writes_of_cover _ _ _ _ _ (coverFirst c _ _ _ _ _ _ _ _ _ _ _ _ _)
          iexact Hr
        iexact Hg
      isplitl [Ho]; · iexact Ho
      isplitl [H0]; · iexact H0
      isplitl [H1]; · iexact H1
      iexists _; iexact H2
  · have hz : t.val ≠ 0 := fun h => h0 (by rw [h])
    by_cases h1 : t.val % 4 = 3
    · rw [show (dat0 V c).leavesExact 2 t = owns (c : Thread nD τ) (ms0_2 t) fullShare ((dat0 V c).after 2 t) from by
        unfold Dat.leavesExact; rw [live0_2 t ((isLastTile_iff t).mpr h1)], after0_2]
      rw [stateAt_last V c t h0 h1]
      unfold outLastAt accLastAt outLast accLast; (try dsimp only)
      rw [PhiS_castSucc V c t, PhiS_pos V c _ _ hz]
      iintro ⟨⟨⟨HS, Hr⟩, Hg⟩, Ho, ⟨%d0, H0⟩, ⟨%d1, H1⟩, ⟨%d2, H2⟩⟩
      iapply ((runLast c (grid0.coords t) _ _ _ _ _ _ _ _ (fun h => h0 ((isFirstTile_iff t).mp h)) ((isLastTile_iff t).mpr h1) (iblk0 V c 0 t) (iblk0 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr Hg]
      · isplitl [HS Hr]
        · isplitl [HS]
          · unfold owns; iexists _; isplitr
            swap; · iexact HS
            ipureintro; exact View.read_writes_of_cover _ _ _ _ _ (coverLastAcc c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastOut c _ _ _ _ _ _ _ _ _ _ _ _ _ _)
    · rw [Dat.leavesExact_idle (dat0 V c) 2 t (idle0_2 t (fun h => h1 ((isLastTile_iff t).mp h))) (noFlush0_2 t (fun h => h1 ((isLastTile_iff t).mp h)))]
      rw [stateAt_mid V c t h0 h1]
      unfold accMidAt accMid; (try dsimp only)
      rw [PhiS_castSucc V c t, PhiS_pos V c _ _ hz]
      iintro ⟨⟨⟨HS, Hr⟩, Hg⟩, Ho, ⟨%d0, H0⟩, ⟨%d1, H1⟩, ⟨%d2, H2⟩⟩
      iapply ((runMid c (grid0.coords t) _ _ _ _ _ _ _ _ (fun h => h0 ((isFirstTile_iff t).mp h)) (fun h => h1 ((isLastTile_iff t).mp h)) (iblk0 V c 0 t) (iblk0 V c 1 t) _).2 Set.univ _)
      isplitl [H0]; · iexact H0
      isplitl [H1]; · iexact H1
      isplitl [HS]; · iexact HS
      iintro ⟨H0, H1, ⟨%es, HS⟩⟩
      isplitl [HS Hr Hg]
      · isplitl [HS Hr]
        · isplitl [HS]
          · unfold owns; iexists _; isplitr
            swap; · iexact HS
            ipureintro; exact View.read_writes_of_cover _ _ _ _ _ (coverMid c _ _ _ _ _ _ _ _ _ _ _ _ _ _)
          iexact Hr
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the class invariant back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS, Hr⟩, Hg⟩
  isplitl [HS Hr]
  · isplitl [HS]; · iexists _; iexact HS
    iexact Hr
  iexact Hg

theorem hout0 (c : Dev nD) : (dat0 V c).Φ (Fin.last cfg0.N) ⊢ Pipeline.ΦA spec0 c :=
  Phi_out0 V c _ (by rw [Fin.val_last]; have : cfg0.N = 16 := N_0; omega)

end Cert.Kernel.Hand

end
-- ==== Proof.Kernel.Region1.lean ====
/-
  The second kernel region (value projection, product with the attention matrix, output projection), one grid
  point at a time: what each input window's staging buffer holds when the body runs (its array's block at the
  point, fetched there or kept from an earlier point), what the body leaves in the output window's buffer (one
  store covering the whole block, its value the body's one payload of the four input blocks), and the body's
  triple at every point. Everything is stated at a parameter `V`, the buffers' contents when the region is
  entered.
-/
import proofs.«124782_j49941879718277_2_alg».proof.Proof.Gen.Kernel.Launch
import proofs.«124782_j49941879718277_2_alg».proof.Proof.Gen.Kernel.Skeleton
import proofs.«124782_j49941879718277_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of its array at point `t`, the arrays as the region finds them. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row tile of `x`: an input whose block the body leaves in place holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The value weights, fetched once: the same. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The output weights, fetched once: the same. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The batch's attention matrix, fetched when the batch index moves: the same. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole buffer -/

abbrev r1_x : Rect S1x512x1024 := Rect.unit (s := S1x512x1024) ![0, 0, 0] S1x512x1024.size inb_S1x512x1024_S1x512x1024_0_0_0
abbrev r1_w : Rect S1024x1024 := Rect.unit (s := S1024x1024) ![0, 0] S1024x1024.size inb_S1024x1024_S1024x1024_0_0
abbrev r1_a : Rect S1x1024x1024 := Rect.unit (s := S1x1024x1024) ![0, 0, 0] S1x1024x1024.size inb_S1x1024x1024_S1x1024x1024_0_0_0

/-- The output window's buffer after the body: its one store, over the body's payload of the four input blocks. -/
def out1_4 (x0 : Vec F S1x512x1024 .f32) (x1 : Vec F S1024x1024 .bf16) (x2 : Vec F S1024x1024 .bf16) (x3 : Vec F S1x1024x1024 .f32) :
    Vec F S1x512x1024 .f32 :=
  View.canon [⟨r1_x, k1_pay1 (View.ld x0 r1_x) (View.ld x1 r1_w) (View.ld x3 r1_a) (View.ld x2 r1_w)⟩]

/-- The one store covers the buffer. -/
theorem cover1_4 (p0 : Vec F S1x512x1024 .f32) (y : S1x512x1024.Idx) :
    ∃ pc ∈ ([⟨r1_x, p0⟩] : List (View.Piece (Elt F) S1x512x1024 .f32)), y ∈ pc.1.set :=
  View.cover_of_tiled [⟨r1_x, p0⟩] S1x512x1024.size (by rfl) y

set_option maxHeartbeats 4000000 in
/-- The body on whole staging memrefs: the inputs' buffers at read contents stay, the output's buffer (at anything:
    the body's load of it is dead) ends at `out1_4` of the inputs'. -/
theorem sound_kernel1 (c : Dev nD) (E : Set ℕ) (i : grid1.Coords)
    (arg2 : Memref sig .tc .vmem S1x512x1024 .f32) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1x1024x1024 .f32) (harg5 : arg5.IsWhole)
    (arg6 : Memref sig .tc .vmem S1x512x1024 .f32) (harg6 : arg6.IsWhole)
    (x0 : Vec F S1x512x1024 .f32) (x1 : Vec F S1024x1024 .bf16) (x2 : Vec F S1024x1024 .bf16) (x3 : Vec F S1x1024x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__av_kernel i arg2 harg2 arg3 harg3 arg4 harg4 arg5 harg5 arg6 harg6) K := by
  simp only [cc1__av_kernel_eq_skeleton]; unfold cc1__av_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The region's proof data -/

/-- Region 1's proof data on core `c`: the arrays as the region finds them; after the body each input's buffer at
    its block, the output's at `out1_4` of the input blocks; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the kernel's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Run.lean ====
/-
  The whole program's run: nine host operations (the four weight matrices transposed and cast, the query and key
  weights concatenated), then the two kernel regions. The buffers' contents at each boundary are a fold from the
  launch memory: after the host operations; after the first region (its output array at what its write-backs
  leave, everything else as entered); after the second region likewise. Each region is a segment entered from
  "every unscoped buffer at the boundary's contents" and left at the next boundary's. The run's post: every weakly
  fair execution ends, and every unscoped buffer ends at the last boundary's contents — from which both "the
  argument arrays end as launched" and the result array's value are read.
-/
import proofs.«124782_j49941879718277_2_alg».proof.Proof.Gen.Kernel.Launch
import proofs.«124782_j49941879718277_2_alg».proof.Proof.Gen.Kernel.Skeleton
import proofs.«124782_j49941879718277_2_alg».proof.Proof.Gen.Kernel.Points
import proofs.«124782_j49941879718277_2_alg».proof.Proof.Gen.Kernel.Regions
import proofs.«124782_j49941879718277_2_alg».proof.Proof.Kernel.Region0
import proofs.«124782_j49941879718277_2_alg».proof.Proof.Kernel.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- At launch. -/
abbrev B0 : Dev nD → Valuation τ sig (Elt F) := fun c b => (s₀ m ρ).mem ((c : Dev nD), b)
/-- After the host operations: the first region's entry. -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- After the first region: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem exit0_arr (c : Dev nD) (w : Fin cfg0.W) : (dat0 (E1 m ρ) c).arrAt w cfg0.N = E2 m ρ c (Pipeline.arrRef spec0 w) :=
  (B2_arr m ρ c w).symm
theorem exit0_rest (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)
/-- After the second region. -/
def B3 (c : Dev nD) : Valuation τ sig (Elt F) :=
  Pipeline.withArrays spec1 c (B2 m ρ c) fun w => (dat1 (E2 m ρ) c).arrAt w cfg1.N
theorem B3_arr (c : Dev nD) (w : Fin cfg1.W) :
    B3 m ρ c (Proc.devRef .tc (Pipeline.arrRef spec1 w)) = (dat1 (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E3 : (c : Dev nD) → (b : Ref sig .tc) → Buf (Elt F) ((c : Thread nD τ).loc b) := fun c b => B3 m ρ c b
theorem exit1_arr (c : Dev nD) (w : Fin cfg1.W) : (dat1 (E2 m ρ) c).arrAt w cfg1.N = E3 m ρ c (Pipeline.arrRef spec1 w) :=
  (B3_arr m ρ c w).symm
theorem exit1_rest (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)

/-! ## The arguments end as launched -/

/-- No host operation writes an argument. -/
theorem B1_arg (c : Dev nD) (r : Ref sig .tc) (h : r ∉ hostOps0_W) : B1 m ρ c (Proc.devRef .tc r) = m ((c : Thread nD τ).loc r) :=
  (StableHlo.after_of_writes_sub hostOps0 _ hostOps0_writes h).trans rfl

/-- `x` is an input window of both regions: its array is never written back. -/
theorem B3_main_arg0 (c : Dev nD) : B3 m ρ c (Proc.devRef .tc main_arg0) = m ((c : Thread nD τ).loc main_arg0) :=
  calc B3 m ρ c (Proc.devRef .tc main_arg0)
    _ = B2 m ρ c (Proc.devRef .tc main_arg0) := (B3_arr m ρ c 0).trans (((dat1 (E2 m ρ) c).arrAt_in 0 rfl _).trans (A_eq1 (E2 m ρ) c 0))
    _ = B1 m ρ c (Proc.devRef .tc main_arg0) := (B2_arr m ρ c 0).trans (((dat0 (E1 m ρ) c).arrAt_in 0 rfl _).trans (A_eq0 (E1 m ρ) c 0))
    _ = m ((c : Thread nD τ).loc main_arg0) := B1_arg m ρ c main_arg0 (by decide)
/-- The weight matrices are no window's array: both regions bypass them. -/
theorem B3_main_arg1 (c : Dev nD) : B3 m ρ c (Proc.devRef .tc main_arg1) = m ((c : Thread nD τ).loc main_arg1) :=
  (B3_of_ne m ρ c main_arg1 (by decide)).trans ((B2_of_ne m ρ c main_arg1 (by decide)).trans (B1_arg m ρ c main_arg1 (by decide)))
theorem B3_main_arg2 (c : Dev nD) : B3 m ρ c (Proc.devRef .tc main_arg2) = m ((c : Thread nD τ).loc main_arg2) :=
  (B3_of_ne m ρ c main_arg2 (by decide)).trans ((B2_of_ne m ρ c main_arg2 (by decide)).trans (B1_arg m ρ c main_arg2 (by decide)))
theorem B3_main_arg3 (c : Dev nD) : B3 m ρ c (Proc.devRef .tc main_arg3) = m ((c : Thread nD τ).loc main_arg3) :=
  (B3_of_ne m ρ c main_arg3 (by decide)).trans ((B2_of_ne m ρ c main_arg3 (by decide)).trans (B1_arg m ρ c main_arg3 (by decide)))
theorem B3_main_arg4 (c : Dev nD) : B3 m ρ c (Proc.devRef .tc main_arg4) = m ((c : Thread nD τ).loc main_arg4) :=
  (B3_of_ne m ρ c main_arg4 (by decide)).trans ((B2_of_ne m ρ c main_arg4 (by decide)).trans (B1_arg m ρ c main_arg4 (by decide)))

/-! ## The proof data family and the thread state -/

abbrev noTables : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) noTables p) c
  | ⟨0, _⟩ => fun c => dat0 (E1 m ρ) c
  | ⟨1, _⟩ => fun c => dat1 (E2 m ρ) c
abbrev noVariants : Variants := Variants.none
/-- No core owes another anything: no level is assigned. -/
abbrev noLevels : GSem nD τ sig → Finset Unit := fun _ => ∅
abbrev levelZero : GSem nD τ sig → Unit → ℕ := fun _ _ => 0
/-- What rides beside the buffers through every segment: the generator register at some state, and nothing owed. -/
abbrev Beside (c : Dev nD) : sProp 𝕄 := iprop((∃ r, prngReg c r) ∗ ∃ W, owes (c : Thread nD τ) (0 : CellTallies nD τ sig Unit) W)
/-- The host operations as a segment. -/
abbrev hostSeg : Pipeline.HostSeg (Name := ℕ) (U := UR sig nD τ) (pcfgs (F := F)) defs₀ noVariants noLevels levelZero :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (B0 m ρ) Beside
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Last (c : Dev nD) : sProp 𝕄 := iprop(StableHlo.held (c : Thread nD τ) (Pipeline.ucRefs τ sig) (B3 m ρ c) ∗ ∃ r, prngReg c r)

/-! ## The regions as segments -/

set_option backward.isDefEq.respectTransparency.types false in
/-- The first region: entered from every unscoped buffer at `B1`, left at `B2`. Its arrays are split out of the
    unscoped buffers and put back at their final contents; the generator register goes into the invariant and comes
    back; the accumulator's contents are the invariant's own and are forgotten at the exit. -/
def reg0 : Pipeline.RegionSeg (pcfgs (F := F)) noTables (pdats m ρ) () defs₀ noVariants noLevels levelZero 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ noLevels levelZero 0 fun _ _ => rfl
  pre c := iprop(StableHlo.held (c : Thread nD τ) (Pipeline.ucRefs τ sig) (B1 m ρ c) ∗ Beside c)
  post c := iprop(StableHlo.held (c : Thread nD τ) (Pipeline.ucRefs τ sig) (B2 m ρ c) ∗ Beside c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (E1 m ρ) c)
    unfold Pipeline.ΦA
    iintro ⟨Hp, -, Hr⟩
    isplitl [Hr]; · iexact Hr
    iexact Hp
  hout c := by
    rw [Pipeline.ownSems0_none]
    refine (hout0 (E1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `B2`, left at `B3` with nothing owed. -/
def reg1 : Pipeline.RegionSeg (pcfgs (F := F)) noTables (pdats m ρ) () defs₀ noVariants noLevels levelZero 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ noLevels levelZero 1 fun _ _ => rfl
  pre c := iprop(StableHlo.held (c : Thread nD τ) (Pipeline.ucRefs τ sig) (B2 m ρ c) ∗ Beside c)
  post c := iprop(Last m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) noTables (pdats m ρ) () defs₀ noVariants noLevels levelZero) :=
  [ .host (hostSeg m ρ), .region (reg0 m ρ), .region (reg1 m ρ) ]

theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m ρ c b) :=
  Pipeline.θ_run_regions_kit (pcfgs (F := F)) noTables (pdats m ρ) () cellOf_inj emb₁ defs₀ noVariants noLevels levelZero m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Beside c)) (Tₙ := Last m ρ)
    (hch := ⟨fun _ => .rfl, fun _ => .rfl, fun _ => .rfl, fun _ => .rfl⟩)
    (hinit := by
      refine Pipeline.initEach noLevels levelZero fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m ρ c b)
    (hfin := fun c s' => by
      iintro ⟨⟨Hh, -⟩, HSI⟩
      unfold StableHlo.held
      imodintro
      iapply (pointsTo_read_all (Pipeline.ucRefs τ sig) (fun b => (((c : Thread nD τ)).1, b)) (B3 m ρ c) s')
      isplitl [Hh] <;> iassumption)
    (hQ := fun s h => h)

/-- The argument arrays end as launched (the frame claim's post, at any instance). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (B3_main_arg0 m ρ c),
     (h c _ (mem_uc main_arg1 (by decide))).trans (B3_main_arg1 m ρ c),
     (h c _ (mem_uc main_arg2 (by decide))).trans (B3_main_arg2 m ρ c),
     (h c _ (mem_uc main_arg3 (by decide))).trans (B3_main_arg3 m ρ c),
     (h c _ (mem_uc main_arg4 (by decide))).trans (B3_main_arg4 m ρ c)⟩) (run_all m ρ)

end Cert.Kernel.Hand

end
-- ==== Proof.KernelIdeal.Region0Runs.lean ====
/-
  The first kernel region (the fused query/key projection, their product accumulated over the sequence tiles in a
  scratch matrix, and on the batch's last tile the scaled row softmax), one grid point at a time. The grid is
  batch × sequence tile, four tiles to a batch. The body branches twice on the tile's position: at a batch's first
  tile it zeroes the scratch before accumulating; at its last tile it also stores the softmax of the scaled scratch
  into the output window, which at every other point it does not touch (there the window is idle and not written
  back). So a point is in one of three cases; each case's run of the body is stated with the pieces its stores leave
  found by the run itself; the scratch's contents after each point are defined by recursion on the point and carried
  in the region's invariant. Everything is stated at a parameter `V`, the buffers' contents when the region is
  entered.
-/
import proofs.«124782_j49941879718277_2_alg».proof.Proof.Gen.KernelIdeal.Launch
import proofs.«124782_j49941879718277_2_alg».proof.Proof.Gen.KernelIdeal.Skeleton
import proofs.«124782_j49941879718277_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of its array at point `t`, the arrays as the region finds them. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The sequence tile of `x`: an input whose block the body leaves in place holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The fused projection weights, fetched once: the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions, in closed form over the grid -/

/-- "This is a batch's first sequence tile", as the body computes it from the grid coordinates. -/
abbrev isFirstTile (i : grid0.Coords) : Prop := (Scalar.cmpi .ne (Scalar.extui (Scalar.cmpi .eq (BitVec.ofNat 32 (i 1).val) 0#32)) 0#32) = 1#1
theorem isFirstTile_iff : ∀ t : Fin cfg0.N, isFirstTile (grid0.coords t) ↔ t.val % 4 = 0 :=
  (by decide +kernel : ∀ t : Fin grid0.N, isFirstTile (grid0.coords t) ↔ t.val % 4 = 0)
/-- "This is a batch's last sequence tile". -/
abbrev isLastTile (i : grid0.Coords) : Prop := k0_cond2 i = 1#1
theorem isLastTile_iff : ∀ t : Fin cfg0.N, isLastTile (grid0.coords t) ↔ t.val % 4 = 3 :=
  (by decide +kernel : ∀ t : Fin grid0.N, isLastTile (grid0.coords t) ↔ t.val % 4 = 3)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
/-- Off a batch's last tile the output window is idle and is not written back. -/
theorem idle0_2 : ∀ t : Fin cfg0.N, ¬isLastTile (grid0.coords t) → cfg0.idle 2 (grid0.coords t) = true := by decide +kernel
theorem noFlush0_2 : ∀ t : Fin cfg0.N, ¬isLastTile (grid0.coords t) → (cfg0.win 2).flush t = false := by decide +kernel
/-- On it the window is live. -/
theorem live0_2 : ∀ t : Fin cfg0.N, isLastTile (grid0.coords t) → cfg0.idle 2 (grid0.coords t) = false := by decide +kernel

/-! ## The memrefs the body is called with -/

abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1024 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev accM : Memref sig .tc .vmem S1024x1024 .f32 := Memref.whole cc0_scratch0
/-- Views through which the accumulator's and the output buffer's contents are stated. -/
abbrev accV : View sig .tc .vmem S1024x1024 .f32 := accM.view
abbrev outV : View sig .tc .vmem S1x1024x1024 .f32 := (Memref.whole cc0_stg2_0 : Memref sig .tc .vmem S1x1024x1024 .f32).view

/-- The core's scoped buffers that are neither a staging buffer of this region nor the accumulator (the second
    region's staging buffers), each at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The class invariant with the accumulator split off as an owned memref. -/
theorem PhiA0_eq (c : Dev nD) :
    (Pipeline.ΦA spec0 c : sProp 𝕄)
      = iprop(iprop((∃ d, owns (c : Thread nD τ) accM fullShare d) ∗ otherScoped (F := F) c) ∗ (∃ r, prngReg c r)) := by
  unfold Pipeline.ΦA otherScoped; rw [scopedRest0_eq]; simp only [accM, owns_whole]; try rfl

/-! ## The body's run, case by case -/

set_option maxHeartbeats 4000000 in
/-- A batch's FIRST tile: the accumulator, at anything, is zeroed and then receives the tile's product; the output
    window is not touched. The pieces the accumulator ends with are what the run finds. -/
noncomputable def runFirst (c : Dev nD) (i : grid0.Coords) (arg2 : Memref sig .tc .vmem S1x1024x1024 .f32) (harg2 : arg2.IsWhole) (arg3 : Memref sig .tc .vmem S1024x2048 .bf16) (harg3 : arg3.IsWhole) (arg4 : Memref sig .tc .vmem S1x1024x1024 .f32) (harg4 : arg4.IsWhole) (arg5 : Memref sig .tc .vmem S1024x1024 .f32) (harg5 : arg5.IsWhole) (hc0 : isFirstTile i) (hc1 : ¬isLastTile i)
    (x0 : Vec F S1x1024x1024 .f32) (x1 : Vec F S1024x2048 .bf16) :
    { LS : List (View.Piece (Elt F) S1024x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg5 fullShare d)
            ∗ (iprop(owns (c : Thread nD τ) arg2 fullShare x0 ∗ owns (c : Thread nD τ) arg3 fullShare x1 ∗ (∃ f, arg5.view.loc (c : Thread nD τ) ↦[arg5.view.set]{fullShare} arg5.view.writes (Elt F) f LS)) -∗ K ⟨⟩))
          ⊢ wp frame (wpE (defs₀ (F := F)) Variants.none c none) E (cc0__qk_kernel i arg2 harg2 arg3 harg3 arg4 harg4 arg5 harg5) K } := by
  refine ⟨?_, fun E K => ?run⟩
  case run =>
    simp only [cc0__qk_kernel_eq_skeleton]; unfold cc0__qk_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 4000000 in
/-- A MIDDLE tile: the accumulator, at what the point before left, receives the tile's product; the output window is
    not touched. -/
noncomputable def runMid (c : Dev nD) (i : grid0.Coords) (arg2 : Memref sig .tc .vmem S1x1024x1024 .f32) (harg2 : arg2.IsWhole) (arg3 : Memref sig .tc .vmem S1024x2048 .bf16) (harg3 : arg3.IsWhole) (arg4 : Memref sig .tc .vmem S1x1024x1024 .f32) (harg4 : arg4.IsWhole) (arg5 : Memref sig .tc .vmem S1024x1024 .f32) (harg5 : arg5.IsWhole) (hc0 : ¬isFirstTile i) (hc1 : ¬isLastTile i)
    (x0 : Vec F S1x1024x1024 .f32) (x1 : Vec F S1024x2048 .bf16) (xs : Vec F S1024x1024 .f32) :
    { LS : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg5 fullShare xs
            ∗ (iprop(owns (c : Thread nD τ) arg2 fullShare x0 ∗ owns (c : Thread nD τ) arg3 fullShare x1 ∗ (∃ f, arg5.view.loc (c : Thread nD τ) ↦[arg5.view.set]{fullShare} arg5.view.writes (Elt F) f LS)) -∗ K ⟨⟩))
          ⊢ wp frame (wpE (defs₀ (F := F)) Variants.none c none) E (cc0__qk_kernel i arg2 harg2 arg3 harg3 arg4 harg4 arg5 harg5) K } := by
  refine ⟨?_, fun E K => ?run⟩
  case run =>
    simp only [cc0__qk_kernel_eq_skeleton]; unfold cc0__qk_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 4000000 in
/-- A batch's LAST tile: the accumulator receives the tile's product, and the output window's buffer (at anything:
    the body's load of it is dead) the softmax of the scaled accumulator. -/
noncomputable def runLast (c : Dev nD) (i : grid0.Coords) (arg2 : Memref sig .tc .vmem S1x1024x1024 .f32) (harg2 : arg2.IsWhole) (arg3 : Memref sig .tc .vmem S1024x2048 .bf16) (harg3 : arg3.IsWhole) (arg4 : Memref sig .tc .vmem S1x1024x1024 .f32) (harg4 : arg4.IsWhole) (arg5 : Memref sig .tc .vmem S1024x1024 .f32) (harg5 : arg5.IsWhole) (hc0 : ¬isFirstTile i) (hc1 : isLastTile i)
    (x0 : Vec F S1x1024x1024 .f32) (x1 : Vec F S1024x2048 .bf16) (xs : Vec F S1024x1024 .f32) :
    Σ' (L2 : List (View.Piece (Elt F) S1x1024x1024 .f32)), { LS : List (View.Piece (Elt F) S1024x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__qk_kernel i arg2 harg2 arg3 harg3 arg4 harg4 arg5 harg5) K } := by
  refine ⟨?_, ?_, fun E K => ?run⟩
  case run =>
    simp only [cc0__qk_kernel_eq_skeleton]; unfold cc0__qk_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Hand

end
-- ==== Proof.KernelIdeal.Region0.lean ====
/-
  The first kernel region, continued: what each case's run leaves in the accumulator and in the output window's
  buffer (its found pieces cover the buffer, so the contents do not depend on what was there before), the
  accumulator's and the output buffer's contents after every grid point by recursion on the point, the region's
  invariant (the accumulator at what the point before left), the proof data and the body obligation.
-/
import proofs.«124782_j49941879718277_2_alg».proof.Proof.Gen.KernelIdeal.Launch
import proofs.«124782_j49941879718277_2_alg».proof.Proof.Gen.KernelIdeal.Skeleton
import proofs.«124782_j49941879718277_2_alg».proof.Proof.Gen.KernelIdeal.Points
import proofs.«124782_j49941879718277_2_alg».proof.Proof.KernelIdeal.Region0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem coverFirst (c : Dev nD) (i : grid0.Coords) (arg2 : Memref sig .tc .vmem S1x1024x1024 .f32) (harg2 : arg2.IsWhole) (arg3 : Memref sig .tc .vmem S1024x2048 .bf16) (harg3 : arg3.IsWhole) (arg4 : Memref sig .tc .vmem S1x1024x1024 .f32) (harg4 : arg4.IsWhole) (arg5 : Memref sig .tc .vmem S1024x1024 .f32) (harg5 : arg5.IsWhole) (hc0 : isFirstTile i) (hc1 : ¬isLastTile i)
    (x0 : Vec F S1x1024x1024 .f32) (x1 : Vec F S1024x2048 .bf16) (y : S1024x1024.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S1024x1024.size (by sl_kernel_rfl) y
/-- The accumulator after a batch's first tile. -/
def accFirst (c : Dev nD) (i : grid0.Coords) (arg2 : Memref sig .tc .vmem S1x1024x1024 .f32) (harg2 : arg2.IsWhole) (arg3 : Memref sig .tc .vmem S1024x2048 .bf16) (harg3 : arg3.IsWhole) (arg4 : Memref sig .tc .vmem S1x1024x1024 .f32) (harg4 : arg4.IsWhole) (arg5 : Memref sig .tc .vmem S1024x1024 .f32) (harg5 : arg5.IsWhole) (hc0 : isFirstTile i) (hc1 : ¬isLastTile i)
    (x0 : Vec F S1x1024x1024 .f32) (x1 : Vec F S1024x2048 .bf16) : Vec F S1024x1024 .f32 :=
  accV.read (Elt F) (accV.writes (Elt F) accV.junk (runFirst c i arg2 harg2 arg3 harg3 arg4 harg4 arg5 harg5 hc0 hc1 x0 x1).1)

theorem coverMid (c : Dev nD) (i : grid0.Coords) (arg2 : Memref sig .tc .vmem S1x1024x1024 .f32) (harg2 : arg2.IsWhole) (arg3 : Memref sig .tc .vmem S1024x2048 .bf16) (harg3 : arg3.IsWhole) (arg4 : Memref sig .tc .vmem S1x1024x1024 .f32) (harg4 : arg4.IsWhole) (arg5 : Memref sig .tc .vmem S1024x1024 .f32) (harg5 : arg5.IsWhole) (hc0 : ¬isFirstTile i) (hc1 : ¬isLastTile i)
    (x0 : Vec F S1x1024x1024 .f32) (x1 : Vec F S1024x2048 .bf16) (xs : Vec F S1024x1024 .f32) (y : S1024x1024.Idx) :
    ∃ pc ∈ (runMid c i arg2 harg2 arg3 harg3 arg4 harg4 arg5 harg5 hc0 hc1 x0 x1 xs).1, y ∈ pc.1.set :=
  View.cover_of_tiledL (runMid c i arg2 harg2 arg3 harg3 arg4 harg4 arg5 harg5 hc0 hc1 x0 x1 xs).1 S1024x1024.size (by sl_kernel_rfl) y
/-- The accumulator after a middle tile, from what the point before left. -/
def accMid (c : Dev nD) (i : grid0.Coords) (arg2 : Memref sig .tc .vmem S1x1024x1024 .f32) (harg2 : arg2.IsWhole) (arg3 : Memref sig .tc .vmem S1024x2048 .bf16) (harg3 : arg3.IsWhole) (arg4 : Memref sig .tc .vmem S1x1024x1024 .f32) (harg4 : arg4.IsWhole) (arg5 : Memref sig .tc .vmem S1024x1024 .f32) (harg5 : arg5.IsWhole) (hc0 : ¬isFirstTile i) (hc1 : ¬isLastTile i)
    (x0 : Vec F S1x1024x1024 .f32) (x1 : Vec F S1024x2048 .bf16) (xs : Vec F S1024x1024 .f32) : Vec F S1024x1024 .f32 :=
  accV.read (Elt F) (accV.writes (Elt F) accV.junk (runMid c i arg2 harg2 arg3 harg3 arg4 harg4 arg5 harg5 hc0 hc1 x0 x1 xs).1)

theorem coverLastAcc (c : Dev nD) (i : grid0.Coords) (arg2 : Memref sig .tc .vmem S1x1024x1024 .f32) (harg2 : arg2.IsWhole) (arg3 : Memref sig .tc .vmem S1024x2048 .bf16) (harg3 : arg3.IsWhole) (arg4 : Memref sig .tc .vmem S1x1024x1024 .f32) (harg4 : arg4.IsWhole) (arg5 : Memref sig .tc .vmem S1024x1024 .f32) (harg5 : arg5.IsWhole) (hc0 : ¬isFirstTile i) (hc1 : isLastTile i)
    (x0 : Vec F S1x1024x1024 .f32) (x1 : Vec F S1024x2048 .bf16) (xs : Vec F S1024x1024 .f32) (y : S1024x1024.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S1024x1024.size (by sl_kernel_rfl) y
/-- The accumulator after a batch's last tile. -/
def accLast (c : Dev nD) (i : grid0.Coords) (arg2 : Memref sig .tc .vmem S1x1024x1024 .f32) (harg2 : arg2.IsWhole) (arg3 : Memref sig .tc .vmem S1024x2048 .bf16) (harg3 : arg3.IsWhole) (arg4 : Memref sig .tc .vmem S1x1024x1024 .f32) (harg4 : arg4.IsWhole) (arg5 : Memref sig .tc .vmem S1024x1024 .f32) (harg5 : arg5.IsWhole) (hc0 : ¬isFirstTile i) (hc1 : isLastTile i)
    (x0 : Vec F S1x1024x1024 .f32) (x1 : Vec F S1024x2048 .bf16) (xs : Vec F S1024x1024 .f32) : Vec F S1024x1024 .f32 :=
  accV.read (Elt F) (accV.writes (Elt F) accV.junk (runLast c i arg2 harg2 arg3 harg3 arg4 harg4 arg5 harg5 hc0 hc1 x0 x1 xs).2.1)
theorem coverLastOut (c : Dev nD) (i : grid0.Coords) (arg2 : Memref sig .tc .vmem S1x1024x1024 .f32) (harg2 : arg2.IsWhole) (arg3 : Memref sig .tc .vmem S1024x2048 .bf16) (harg3 : arg3.IsWhole) (arg4 : Memref sig .tc .vmem S1x1024x1024 .f32) (harg4 : arg4.IsWhole) (arg5 : Memref sig .tc .vmem S1024x1024 .f32) (harg5 : arg5.IsWhole) (hc0 : ¬isFirstTile i) (hc1 : isLastTile i)
    (x0 : Vec F S1x1024x1024 .f32) (x1 : Vec F S1024x2048 .bf16) (xs : Vec F S1024x1024 .f32) (y : S1x1024x1024.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S1x1024x1024.size (by sl_kernel_rfl) y
/-- The output window's buffer after a batch's last tile. -/
def outLast (c : Dev nD) (i : grid0.Coords) (arg2 : Memref sig .tc .vmem S1x1024x1024 .f32) (harg2 : arg2.IsWhole) (arg3 : Memref sig .tc .vmem S1024x2048 .bf16) (harg3 : arg3.IsWhole) (arg4 : Memref sig .tc .vmem S1x1024x1024 .f32) (harg4 : arg4.IsWhole) (arg5 : Memref sig .tc .vmem S1024x1024 .f32) (harg5 : arg5.IsWhole) (hc0 : ¬isFirstTile i) (hc1 : isLastTile i)
    (x0 : Vec F S1x1024x1024 .f32) (x1 : Vec F S1024x2048 .bf16) (xs : Vec F S1024x1024 .f32) : Vec F S1x1024x1024 .f32 :=
  outV.read (Elt F) (outV.writes (Elt F) outV.junk (runLast c i arg2 harg2 arg3 harg3 arg4 harg4 arg5 harg5 hc0 hc1 x0 x1 xs).1)
/-- A placeholder for the output window's buffer at the points where it is idle: nothing consults it there (the window
    is neither written back nor read at the next point). -/
def outIdle : Vec F S1x1024x1024 .f32 := outV.read (Elt F) outV.junk

/-! ## The same at a grid point, on the memrefs and blocks the pipeline hands the body there -/

def accFirstAt (c : Dev nD) (t : Fin cfg0.N) (h0 : t.val % 4 = 0) (h1 : ¬t.val % 4 = 3) : Vec F S1024x1024 .f32 :=
  accFirst c (grid0.coords t) (ms0_0 t) (hs0_0 t) (ms0_1 t) (hs0_1 t) (ms0_2 t) (hs0_2 t) accM (Memref.isWhole_whole _) ((isFirstTile_iff t).mpr h0) (fun h => h1 ((isLastTile_iff t).mp h)) (iblk0 V c 0 t) (iblk0 V c 1 t)
def accMidAt (c : Dev nD) (t : Fin cfg0.N) (h0 : ¬t.val % 4 = 0) (h1 : ¬t.val % 4 = 3) (xs : Vec F S1024x1024 .f32) : Vec F S1024x1024 .f32 :=
  accMid c (grid0.coords t) (ms0_0 t) (hs0_0 t) (ms0_1 t) (hs0_1 t) (ms0_2 t) (hs0_2 t) accM (Memref.isWhole_whole _) (fun h => h0 ((isFirstTile_iff t).mp h)) (fun h => h1 ((isLastTile_iff t).mp h)) (iblk0 V c 0 t) (iblk0 V c 1 t) xs
def accLastAt (c : Dev nD) (t : Fin cfg0.N) (h0 : ¬t.val % 4 = 0) (h1 : t.val % 4 = 3) (xs : Vec F S1024x1024 .f32) : Vec F S1024x1024 .f32 :=
  accLast c (grid0.coords t) (ms0_0 t) (hs0_0 t) (ms0_1 t) (hs0_1 t) (ms0_2 t) (hs0_2 t) accM (Memref.isWhole_whole _) (fun h => h0 ((isFirstTile_iff t).mp h)) ((isLastTile_iff t).mpr h1) (iblk0 V c 0 t) (iblk0 V c 1 t) xs
def outLastAt (c : Dev nD) (t : Fin cfg0.N) (h0 : ¬t.val % 4 = 0) (h1 : t.val % 4 = 3) (xs : Vec F S1024x1024 .f32) : Vec F S1x1024x1024 .f32 :=
  outLast c (grid0.coords t) (ms0_0 t) (hs0_0 t) (ms0_1 t) (hs0_1 t) (ms0_2 t) (hs0_2 t) accM (Memref.isWhole_whole _) (fun h => h0 ((isFirstTile_iff t).mp h)) ((isLastTile_iff t).mpr h1) (iblk0 V c 0 t) (iblk0 V c 1 t) xs

/-! ## After each point -/

/-- What the output window's buffer and the accumulator hold after the body at position `n` (a pair): the case the
    position is in, the accumulator it starts from what position `n - 1` left. -/
def stateAt (c : Dev nD) : (n : ℕ) → n < cfg0.N → Vec F S1x1024x1024 .f32 × Vec F S1024x1024 .f32
  | 0, hn => (outIdle, accFirstAt V c ⟨0, hn⟩ (Nat.zero_mod _) (show ¬(0 : ℕ) % 4 = 3 by decide))
  | n + 1, hn =>
    if h0 : (n + 1) % 4 = 0 then
      (outIdle, accFirstAt V c ⟨n + 1, hn⟩ h0 (fun h => by have h' : (n + 1) % 4 = 3 := h; omega))
    else
      if h1 : (n + 1) % 4 = 3 then
        (outLastAt V c ⟨n + 1, hn⟩ h0 h1 (stateAt c n (Nat.lt_of_succ_lt hn)).2, accLastAt V c ⟨n + 1, hn⟩ h0 h1 (stateAt c n (Nat.lt_of_succ_lt hn)).2)
      else
        (outIdle, accMidAt V c ⟨n + 1, hn⟩ h0 h1 (stateAt c n (Nat.lt_of_succ_lt hn)).2)

theorem stateAt_first (c : Dev nD) (t : Fin cfg0.N) (h0 : t.val % 4 = 0) (h1 : ¬t.val % 4 = 3) :
    stateAt V c t.val t.isLt = (outIdle, accFirstAt V c t h0 h1) := by
  obtain ⟨n, hn⟩ := t
  cases n with
  | zero => exact rfl
  | succ n => exact (dif_pos h0).trans rfl

theorem stateAt_mid (c : Dev nD) (t : Fin cfg0.N) (h0 : ¬t.val % 4 = 0) (h1 : ¬t.val % 4 = 3) :
    stateAt V c t.val t.isLt = (outIdle, accMidAt V c t h0 h1 (stateAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem stateAt_last (c : Dev nD) (t : Fin cfg0.N) (h0 : ¬t.val % 4 = 0) (h1 : t.val % 4 = 3) :
    stateAt V c t.val t.isLt = (outLastAt V c t h0 h1 (stateAt V c (t.val - 1) (Nat.lt_of_le_of_lt (Nat.sub_le _ _) t.isLt)).2,
      accLastAt V c t h0 h1 (stateAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant -/

/-- Before position `n`: at the region's entry the class invariant (every scoped buffer that is no staging buffer of
    this region at anything, the generator register at some state); afterwards the same with the accumulator at what
    the point before left. -/
def PhiS (c : Dev nD) : (n : ℕ) → n ≤ cfg0.N → sProp 𝕄
  | 0, _ => Pipeline.ΦA spec0 c
  | n + 1, hn => iprop(iprop(owns (c : Thread nD τ) accM fullShare ((stateAt V c n hn).2) ∗ otherScoped (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accM fullShare ((stateAt V c n hn).2) ∗ otherScoped (F := F) c) ∗ (∃ r, prngReg c r)) := rfl
theorem PhiS_pos (c : Dev nD) (n : ℕ) (h : n ≤ cfg0.N) (hz : n ≠ 0) :
    PhiS V c n h = iprop(iprop(owns (c : Thread nD τ) accM fullShare ((stateAt V c (n - 1) (by omega)).2) ∗ otherScoped (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (stateAt V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (stateAt V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' buffers hold their blocks; the point's position among its batch's tiles says
    which case it is in; the invariant hands the body the accumulator at what the point before left (at anything at
    the region's first point) and takes it back at this point's contents; where the output window is idle its buffer
    is kept aside untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  have hN : t.val < 16 := lt_of_lt_of_eq t.isLt (show cfg0.N = 16 from N_0)
  by_cases h0 : t.val % 4 = 0
  · have h1 : ¬t.val % 4 = 3 := by omega
    rw [Dat.leavesExact_idle (dat0 V c) 2 t (idle0_2 t (fun h => h1 ((isLastTile_iff t).mp h))) (noFlush0_2 t (fun h => h1 ((isLastTile_iff t).mp h)))]
    rw [stateAt_first V c t h0 h1]
    unfold accFirstAt accFirst; (try dsimp only)
    by_cases hz : t.val = 0
    · rw [PhiS_castSucc V c t, PhiS_zero V c _ _ hz, PhiA0_eq]
      iintro ⟨⟨⟨HS, Hr⟩, Hg⟩, Ho, ⟨%d0, H0⟩, ⟨%d1, H1⟩, ⟨%d2, H2⟩⟩
      iapply ((runFirst c (grid0.coords t) _ _ _ _ _ _ _ _ ((isFirstTile_iff t).mpr h0) (fun h => h1 ((isLastTile_iff t).mp h)) (iblk0 V c 0 t) (iblk0 V c 1 t)).2 Set.univ _)
      isplitl [H0]; · iexact H0
      isplitl [H1]; · iexact H1
      isplitl [HS]; · iexact HS
      iintro ⟨H0, H1, ⟨%es, HS⟩⟩
      isplitl [HS Hr Hg]
      · isplitl [HS Hr]
        · isplitl [HS]
          · unfold owns; iexists _; isplitr
            swap; · iexact HS
            ipureintro; exact View.read_writes_of_cover _ _ _ _ _ (coverFirst c _ _ _ _ _ _ _ _ _ _ _ _ _)
          iexact Hr
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS, Hr⟩, Hg⟩, Ho, ⟨%d0, H0⟩, ⟨%d1, H1⟩, ⟨%d2, H2⟩⟩
      iapply ((runFirst c (grid0.coords t) _ _ _ _ _ _ _ _ ((isFirstTile_iff t).mpr h0) (fun h => h1 ((isLastTile_iff t).mp h)) (iblk0 V c 0 t) (iblk0 V c 1 t)).2 Set.univ _)
      isplitl [H0]; · iexact H0
      isplitl [H1]; · iexact H1
      isplitl [HS]; · iexists _; iexact HS
      iintro ⟨H0, H1, ⟨%es, HS⟩⟩
      isplitl [HS Hr Hg]
      · isplitl [HS Hr]
        · isplitl [HS]
          · unfold owns; iexists _; isplitr
            swap; · iexact HS
            ipureintro; exact View.read_writes_of_cover _ _ _ _ _ (coverFirst c _ _ _ _ _ _ _ _ _ _ _ _ _)
          iexact Hr
        iexact Hg
      isplitl [Ho]; · iexact Ho
      isplitl [H0]; · iexact H0
      isplitl [H1]; · iexact H1
      iexists _; iexact H2
  · have hz : t.val ≠ 0 := fun h => h0 (by rw [h])
    by_cases h1 : t.val % 4 = 3
    · rw [show (dat0 V c).leavesExact 2 t = owns (c : Thread nD τ) (ms0_2 t) fullShare ((dat0 V c).after 2 t) from by
        unfold Dat.leavesExact; rw [live0_2 t ((isLastTile_iff t).mpr h1)], after0_2]
      rw [stateAt_last V c t h0 h1]
      unfold outLastAt accLastAt outLast accLast; (try dsimp only)
      rw [PhiS_castSucc V c t, PhiS_pos V c _ _ hz]
      iintro ⟨⟨⟨HS, Hr⟩, Hg⟩, Ho, ⟨%d0, H0⟩, ⟨%d1, H1⟩, ⟨%d2, H2⟩⟩
      iapply ((runLast c (grid0.coords t) _ _ _ _ _ _ _ _ (fun h => h0 ((isFirstTile_iff t).mp h)) ((isLastTile_iff t).mpr h1) (iblk0 V c 0 t) (iblk0 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr Hg]
      · isplitl [HS Hr]
        · isplitl [HS]
          · unfold owns; iexists _; isplitr
            swap; · iexact HS
            ipureintro; exact View.read_writes_of_cover _ _ _ _ _ (coverLastAcc c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastOut c _ _ _ _ _ _ _ _ _ _ _ _ _ _)
    · rw [Dat.leavesExact_idle (dat0 V c) 2 t (idle0_2 t (fun h => h1 ((isLastTile_iff t).mp h))) (noFlush0_2 t (fun h => h1 ((isLastTile_iff t).mp h)))]
      rw [stateAt_mid V c t h0 h1]
      unfold accMidAt accMid; (try dsimp only)
      rw [PhiS_castSucc V c t, PhiS_pos V c _ _ hz]
      iintro ⟨⟨⟨HS, Hr⟩, Hg⟩, Ho, ⟨%d0, H0⟩, ⟨%d1, H1⟩, ⟨%d2, H2⟩⟩
      iapply ((runMid c (grid0.coords t) _ _ _ _ _ _ _ _ (fun h => h0 ((isFirstTile_iff t).mp h)) (fun h => h1 ((isLastTile_iff t).mp h)) (iblk0 V c 0 t) (iblk0 V c 1 t) _).2 Set.univ _)
      isplitl [H0]; · iexact H0
      isplitl [H1]; · iexact H1
      isplitl [HS]; · iexact HS
      iintro ⟨H0, H1, ⟨%es, HS⟩⟩
      isplitl [HS Hr Hg]
      · isplitl [HS Hr]
        · isplitl [HS]
          · unfold owns; iexists _; isplitr
            swap; · iexact HS
            ipureintro; exact View.read_writes_of_cover _ _ _ _ _ (coverMid c _ _ _ _ _ _ _ _ _ _ _ _ _ _)
          iexact Hr
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the class invariant back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS, Hr⟩, Hg⟩
  isplitl [HS Hr]
  · isplitl [HS]; · iexists _; iexact HS
    iexact Hr
  iexact Hg

theorem hout0 (c : Dev nD) : (dat0 V c).Φ (Fin.last cfg0.N) ⊢ Pipeline.ΦA spec0 c :=
  Phi_out0 V c _ (by rw [Fin.val_last]; have : cfg0.N = 16 := N_0; omega)

end Cert.KernelIdeal.Hand

end
-- ==== Proof.KernelIdeal.Region1.lean ====
/-
  The second kernel region (value projection, product with the attention matrix, output projection), one grid
  point at a time: what each input window's staging buffer holds when the body runs (its array's block at the
  point, fetched there or kept from an earlier point), what the body leaves in the output window's buffer (one
  store covering the whole block, its value the body's one payload of the four input blocks), and the body's
  triple at every point. Everything is stated at a parameter `V`, the buffers' contents when the region is
  entered.
-/
import proofs.«124782_j49941879718277_2_alg».proof.Proof.Gen.KernelIdeal.Launch
import proofs.«124782_j49941879718277_2_alg».proof.Proof.Gen.KernelIdeal.Skeleton
import proofs.«124782_j49941879718277_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of its array at point `t`, the arrays as the region finds them. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row tile of `x`: an input whose block the body leaves in place holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The value weights, fetched once: the same. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The output weights, fetched once: the same. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The batch's attention matrix, fetched when the batch index moves: the same. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole buffer -/

abbrev r1_x : Rect S1x512x1024 := Rect.unit (s := S1x512x1024) ![0, 0, 0] S1x512x1024.size inb_S1x512x1024_S1x512x1024_0_0_0
abbrev r1_w : Rect S1024x1024 := Rect.unit (s := S1024x1024) ![0, 0] S1024x1024.size inb_S1024x1024_S1024x1024_0_0
abbrev r1_a : Rect S1x1024x1024 := Rect.unit (s := S1x1024x1024) ![0, 0, 0] S1x1024x1024.size inb_S1x1024x1024_S1x1024x1024_0_0_0

/-- The output window's buffer after the body: its one store, over the body's payload of the four input blocks. -/
def out1_4 (x0 : Vec F S1x512x1024 .f32) (x1 : Vec F S1024x1024 .bf16) (x2 : Vec F S1024x1024 .bf16) (x3 : Vec F S1x1024x1024 .f32) :
    Vec F S1x512x1024 .f32 :=
  View.canon [⟨r1_x, k1_pay1 (View.ld x0 r1_x) (View.ld x1 r1_w) (View.ld x3 r1_a) (View.ld x2 r1_w)⟩]

/-- The one store covers the buffer. -/
theorem cover1_4 (p0 : Vec F S1x512x1024 .f32) (y : S1x512x1024.Idx) :
    ∃ pc ∈ ([⟨r1_x, p0⟩] : List (View.Piece (Elt F) S1x512x1024 .f32)), y ∈ pc.1.set :=
  View.cover_of_tiled [⟨r1_x, p0⟩] S1x512x1024.size (by rfl) y

set_option maxHeartbeats 4000000 in
/-- The body on whole staging memrefs: the inputs' buffers at read contents stay, the output's buffer (at anything:
    the body's load of it is dead) ends at `out1_4` of the inputs'. -/
theorem sound_kernel1 (c : Dev nD) (E : Set ℕ) (i : grid1.Coords)
    (arg2 : Memref sig .tc .vmem S1x512x1024 .f32) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1x1024x1024 .f32) (harg5 : arg5.IsWhole)
    (arg6 : Memref sig .tc .vmem S1x512x1024 .f32) (harg6 : arg6.IsWhole)
    (x0 : Vec F S1x512x1024 .f32) (x1 : Vec F S1024x1024 .bf16) (x2 : Vec F S1024x1024 .bf16) (x3 : Vec F S1x1024x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__av_kernel i arg2 harg2 arg3 harg3 arg4 harg4 arg5 harg5 arg6 harg6) K := by
  simp only [cc1__av_kernel_eq_skeleton]; unfold cc1__av_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The region's proof data -/

/-- Region 1's proof data on core `c`: the arrays as the region finds them; after the body each input's buffer at
    its block, the output's at `out1_4` of the input blocks; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the kernel's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Run.lean ====
/-
  The whole program's run: nine host operations (the four weight matrices transposed and cast, the query and key
  weights concatenated), then the two kernel regions. The buffers' contents at each boundary are a fold from the
  launch memory: after the host operations; after the first region (its output array at what its write-backs
  leave, everything else as entered); after the second region likewise. Each region is a segment entered from
  "every unscoped buffer at the boundary's contents" and left at the next boundary's. The run's post: every weakly
  fair execution ends, and every unscoped buffer ends at the last boundary's contents — from which both "the
  argument arrays end as launched" and the result array's value are read.
-/
import proofs.«124782_j49941879718277_2_alg».proof.Proof.Gen.KernelIdeal.Launch
import proofs.«124782_j49941879718277_2_alg».proof.Proof.Gen.KernelIdeal.Skeleton
import proofs.«124782_j49941879718277_2_alg».proof.Proof.Gen.KernelIdeal.Points
import proofs.«124782_j49941879718277_2_alg».proof.Proof.Gen.KernelIdeal.Regions
import proofs.«124782_j49941879718277_2_alg».proof.Proof.KernelIdeal.Region0
import proofs.«124782_j49941879718277_2_alg».proof.Proof.KernelIdeal.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- At launch. -/
abbrev B0 : Dev nD → Valuation τ sig (Elt F) := fun c b => (s₀ m ρ).mem ((c : Dev nD), b)
/-- After the host operations: the first region's entry. -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- After the first region: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem exit0_arr (c : Dev nD) (w : Fin cfg0.W) : (dat0 (E1 m ρ) c).arrAt w cfg0.N = E2 m ρ c (Pipeline.arrRef spec0 w) :=
  (B2_arr m ρ c w).symm
theorem exit0_rest (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)
/-- After the second region. -/
def B3 (c : Dev nD) : Valuation τ sig (Elt F) :=
  Pipeline.withArrays spec1 c (B2 m ρ c) fun w => (dat1 (E2 m ρ) c).arrAt w cfg1.N
theorem B3_arr (c : Dev nD) (w : Fin cfg1.W) :
    B3 m ρ c (Proc.devRef .tc (Pipeline.arrRef spec1 w)) = (dat1 (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E3 : (c : Dev nD) → (b : Ref sig .tc) → Buf (Elt F) ((c : Thread nD τ).loc b) := fun c b => B3 m ρ c b
theorem exit1_arr (c : Dev nD) (w : Fin cfg1.W) : (dat1 (E2 m ρ) c).arrAt w cfg1.N = E3 m ρ c (Pipeline.arrRef spec1 w) :=
  (B3_arr m ρ c w).symm
theorem exit1_rest (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)

/-! ## The arguments end as launched -/

/-- No host operation writes an argument. -/
theorem B1_arg (c : Dev nD) (r : Ref sig .tc) (h : r ∉ hostOps0_W) : B1 m ρ c (Proc.devRef .tc r) = m ((c : Thread nD τ).loc r) :=
  (StableHlo.after_of_writes_sub hostOps0 _ hostOps0_writes h).trans rfl

/-- `x` is an input window of both regions: its array is never written back. -/
theorem B3_main_arg0 (c : Dev nD) : B3 m ρ c (Proc.devRef .tc main_arg0) = m ((c : Thread nD τ).loc main_arg0) :=
  calc B3 m ρ c (Proc.devRef .tc main_arg0)
    _ = B2 m ρ c (Proc.devRef .tc main_arg0) := (B3_arr m ρ c 0).trans (((dat1 (E2 m ρ) c).arrAt_in 0 rfl _).trans (A_eq1 (E2 m ρ) c 0))
    _ = B1 m ρ c (Proc.devRef .tc main_arg0) := (B2_arr m ρ c 0).trans (((dat0 (E1 m ρ) c).arrAt_in 0 rfl _).trans (A_eq0 (E1 m ρ) c 0))
    _ = m ((c : Thread nD τ).loc main_arg0) := B1_arg m ρ c main_arg0 (by decide)
/-- The weight matrices are no window's array: both regions bypass them. -/
theorem B3_main_arg1 (c : Dev nD) : B3 m ρ c (Proc.devRef .tc main_arg1) = m ((c : Thread nD τ).loc main_arg1) :=
  (B3_of_ne m ρ c main_arg1 (by decide)).trans ((B2_of_ne m ρ c main_arg1 (by decide)).trans (B1_arg m ρ c main_arg1 (by decide)))
theorem B3_main_arg2 (c : Dev nD) : B3 m ρ c (Proc.devRef .tc main_arg2) = m ((c : Thread nD τ).loc main_arg2) :=
  (B3_of_ne m ρ c main_arg2 (by decide)).trans ((B2_of_ne m ρ c main_arg2 (by decide)).trans (B1_arg m ρ c main_arg2 (by decide)))
theorem B3_main_arg3 (c : Dev nD) : B3 m ρ c (Proc.devRef .tc main_arg3) = m ((c : Thread nD τ).loc main_arg3) :=
  (B3_of_ne m ρ c main_arg3 (by decide)).trans ((B2_of_ne m ρ c main_arg3 (by decide)).trans (B1_arg m ρ c main_arg3 (by decide)))
theorem B3_main_arg4 (c : Dev nD) : B3 m ρ c (Proc.devRef .tc main_arg4) = m ((c : Thread nD τ).loc main_arg4) :=
  (B3_of_ne m ρ c main_arg4 (by decide)).trans ((B2_of_ne m ρ c main_arg4 (by decide)).trans (B1_arg m ρ c main_arg4 (by decide)))

/-! ## The proof data family and the thread state -/

abbrev noTables : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) noTables p) c
  | ⟨0, _⟩ => fun c => dat0 (E1 m ρ) c
  | ⟨1, _⟩ => fun c => dat1 (E2 m ρ) c
abbrev noVariants : Variants := Variants.none
/-- No core owes another anything: no level is assigned. -/
abbrev noLevels : GSem nD τ sig → Finset Unit := fun _ => ∅
abbrev levelZero : GSem nD τ sig → Unit → ℕ := fun _ _ => 0
/-- What rides beside the buffers through every segment: the generator register at some state, and nothing owed. -/
abbrev Beside (c : Dev nD) : sProp 𝕄 := iprop((∃ r, prngReg c r) ∗ ∃ W, owes (c : Thread nD τ) (0 : CellTallies nD τ sig Unit) W)
/-- The host operations as a segment. -/
abbrev hostSeg : Pipeline.HostSeg (Name := ℕ) (U := UR sig nD τ) (pcfgs (F := F)) defs₀ noVariants noLevels levelZero :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (B0 m ρ) Beside
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Last (c : Dev nD) : sProp 𝕄 := iprop(StableHlo.held (c : Thread nD τ) (Pipeline.ucRefs τ sig) (B3 m ρ c) ∗ ∃ r, prngReg c r)

/-! ## The regions as segments -/

set_option backward.isDefEq.respectTransparency.types false in
/-- The first region: entered from every unscoped buffer at `B1`, left at `B2`. Its arrays are split out of the
    unscoped buffers and put back at their final contents; the generator register goes into the invariant and comes
    back; the accumulator's contents are the invariant's own and are forgotten at the exit. -/
def reg0 : Pipeline.RegionSeg (pcfgs (F := F)) noTables (pdats m ρ) () defs₀ noVariants noLevels levelZero 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ noLevels levelZero 0 fun _ _ => rfl
  pre c := iprop(StableHlo.held (c : Thread nD τ) (Pipeline.ucRefs τ sig) (B1 m ρ c) ∗ Beside c)
  post c := iprop(StableHlo.held (c : Thread nD τ) (Pipeline.ucRefs τ sig) (B2 m ρ c) ∗ Beside c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (E1 m ρ) c)
    unfold Pipeline.ΦA
    iintro ⟨Hp, -, Hr⟩
    isplitl [Hr]; · iexact Hr
    iexact Hp
  hout c := by
    rw [Pipeline.ownSems0_none]
    refine (hout0 (E1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `B2`, left at `B3` with nothing owed. -/
def reg1 : Pipeline.RegionSeg (pcfgs (F := F)) noTables (pdats m ρ) () defs₀ noVariants noLevels levelZero 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ noLevels levelZero 1 fun _ _ => rfl
  pre c := iprop(StableHlo.held (c : Thread nD τ) (Pipeline.ucRefs τ sig) (B2 m ρ c) ∗ Beside c)
  post c := iprop(Last m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) noTables (pdats m ρ) () defs₀ noVariants noLevels levelZero) :=
  [ .host (hostSeg m ρ), .region (reg0 m ρ), .region (reg1 m ρ) ]

theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m ρ c b) :=
  Pipeline.θ_run_regions_kit (pcfgs (F := F)) noTables (pdats m ρ) () cellOf_inj emb₁ defs₀ noVariants noLevels levelZero m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Beside c)) (Tₙ := Last m ρ)
    (hch := ⟨fun _ => .rfl, fun _ => .rfl, fun _ => .rfl, fun _ => .rfl⟩)
    (hinit := by
      refine Pipeline.initEach noLevels levelZero fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m ρ c b)
    (hfin := fun c s' => by
      iintro ⟨⟨Hh, -⟩, HSI⟩
      unfold StableHlo.held
      imodintro
      iapply (pointsTo_read_all (Pipeline.ucRefs τ sig) (fun b => (((c : Thread nD τ)).1, b)) (B3 m ρ c) s')
      isplitl [Hh] <;> iassumption)
    (hQ := fun s h => h)

/-- The argument arrays end as launched (the frame claim's post, at any instance). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (B3_main_arg0 m ρ c),
     (h c _ (mem_uc main_arg1 (by decide))).trans (B3_main_arg1 m ρ c),
     (h c _ (mem_uc main_arg2 (by decide))).trans (B3_main_arg2 m ρ c),
     (h c _ (mem_uc main_arg3 (by decide))).trans (B3_main_arg3 m ρ c),
     (h c _ (mem_uc main_arg4 (by decide))).trans (B3_main_arg4 m ρ c)⟩) (run_all m ρ)

end Cert.KernelIdeal.Hand

end
-- ==== Proof.KernelIdeal.Acc.lean ====
/-
  The first region's accumulator as values. In every case the body's stores cover their buffers whole, so what a case
  leaves is its store's payload: the accumulator ends at (tile product) added to what it started from — the zero
  block at a batch's first tile, what the point before left otherwise — and at a batch's last tile the output buffer
  ends at the row softmax payload of that same accumulator. So over the points the accumulator resets at the multiples
  of four and steps from the point before elsewhere.
-/
import proofs.«124782_j49941879718277_2_alg».proof.Proof.KernelIdeal.Region0
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.Tactic
open Idealize.ShloMosaic.Pipeline (Dat)
open Idealize.ShloMosaic.ValueIdx

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem accMid_eq (c : Dev nD) (i : grid0.Coords) (a2 : Memref sig .tc .vmem S1x1024x1024 .f32) (h2 : a2.IsWhole) (a3 : Memref sig .tc .vmem S1024x2048 .bf16) (h3 : a3.IsWhole) (a4 : Memref sig .tc .vmem S1x1024x1024 .f32) (h4 : a4.IsWhole) (a5 : Memref sig .tc .vmem S1024x1024 .f32) (h5 : a5.IsWhole) (hc0 : ¬isFirstTile i) (hc1 : ¬isLastTile i) (x0 : Vec F S1x1024x1024 .f32) (x1 : Vec F S1024x2048 .bf16) (xs : Vec F S1024x1024 .f32) :
    accMid c i a2 h2 a3 h3 a4 h4 a5 h5 hc0 hc1 x0 x1 xs = k0_pay2 x0 x1 xs := by
  unfold accMid
  rw [View.read_writes_eq_canon _ _ _ (coverMid c i a2 h2 a3 h3 a4 h4 a5 h5 hc0 hc1 x0 x1 xs)]
  unfold runMid
  dsimp only
  rw [View.canon_unit_zero (S := S1024x1024) hz2]
  simp only [View.readAt_eq_ld, h2.read_unread, h3.read_unread, h5.read_unread, View.ld_unit_zero (S := S1x1024x1024) hz3,
    View.ld_unit_zero (S := S1024x2048) hz2, View.ld_unit_zero (S := S1024x1024) hz2]

theorem accLast_eq (c : Dev nD) (i : grid0.Coords) (a2 : Memref sig .tc .vmem S1x1024x1024 .f32) (h2 : a2.IsWhole) (a3 : Memref sig .tc .vmem S1024x2048 .bf16) (h3 : a3.IsWhole) (a4 : Memref sig .tc .vmem S1x1024x1024 .f32) (h4 : a4.IsWhole) (a5 : Memref sig .tc .vmem S1024x1024 .f32) (h5 : a5.IsWhole) (hc0 : ¬isFirstTile i) (hc1 : isLastTile i) (x0 : Vec F S1x1024x1024 .f32) (x1 : Vec F S1024x2048 .bf16) (xs : Vec F S1024x1024 .f32) :
    accLast c i a2 h2 a3 h3 a4 h4 a5 h5 hc0 hc1 x0 x1 xs = k0_pay2 x0 x1 xs := by
  unfold accLast
  rw [View.read_writes_eq_canon _ _ _ (coverLastAcc c i a2 h2 a3 h3 a4 h4 a5 h5 hc0 hc1 x0 x1 xs)]
  unfold runLast
  dsimp only
  sl_unfold_words
  rw [View.canon_unit_zero (S := S1024x1024) hz2]
  simp only [View.readAt_eq_ld, h2.read_unread, h3.read_unread, h5.read_unread, View.ld_unit_zero (S := S1x1024x1024) hz3,
    View.ld_unit_zero (S := S1024x2048) hz2, View.ld_unit_zero (S := S1024x1024) hz2]

theorem accFirst_eq (c : Dev nD) (i : grid0.Coords) (a2 : Memref sig .tc .vmem S1x1024x1024 .f32) (h2 : a2.IsWhole) (a3 : Memref sig .tc .vmem S1024x2048 .bf16) (h3 : a3.IsWhole) (a4 : Memref sig .tc .vmem S1x1024x1024 .f32) (h4 : a4.IsWhole) (a5 : Memref sig .tc .vmem S1024x1024 .f32) (h5 : a5.IsWhole) (hc0 : isFirstTile i) (hc1 : ¬isLastTile i) (x0 : Vec F S1x1024x1024 .f32) (x1 : Vec F S1024x2048 .bf16) :
    accFirst c i a2 h2 a3 h3 a4 h4 a5 h5 hc0 hc1 x0 x1 = k0_pay2 x0 x1 k0_pay1 := by
  unfold accFirst
  rw [View.read_writes_eq_canon _ _ _ (coverFirst c i a2 h2 a3 h3 a4 h4 a5 h5 hc0 hc1 x0 x1)]
  unfold runFirst
  dsimp only
  sl_unfold_words
  rw [View.canon_cons_unit_zero (S := S1024x1024) hz2, View.readCov_unit_zero (S := S1024x1024) _ hz2]
  simp only [View.readAt_eq_ld, h2.read_unread, h3.read_unread, View.ld_unit_zero (S := S1x1024x1024) hz3,
    View.ld_unit_zero (S := S1024x2048) hz2]

theorem outLast_eq (c : Dev nD) (i : grid0.Coords) (a2 : Memref sig .tc .vmem S1x1024x1024 .f32) (h2 : a2.IsWhole) (a3 : Memref sig .tc .vmem S1024x2048 .bf16) (h3 : a3.IsWhole) (a4 : Memref sig .tc .vmem S1x1024x1024 .f32) (h4 : a4.IsWhole) (a5 : Memref sig .tc .vmem S1024x1024 .f32) (h5 : a5.IsWhole) (hc0 : ¬isFirstTile i) (hc1 : isLastTile i) (x0 : Vec F S1x1024x1024 .f32) (x1 : Vec F S1024x2048 .bf16) (xs : Vec F S1024x1024 .f32) :
    outLast c i a2 h2 a3 h3 a4 h4 a5 h5 hc0 hc1 x0 x1 xs = k0_pay3 (k0_pay2 x0 x1 xs) := by
  unfold outLast
  rw [View.read_writes_eq_canon _ _ _ (coverLastOut c i a2 h2 a3 h3 a4 h4 a5 h5 hc0 hc1 x0 x1 xs)]
  unfold runLast
  dsimp only
  sl_unfold_words
  rw [View.canon_unit_zero (S := S1x1024x1024) hz3, View.readCov_unit_zero (S := S1024x1024) _ hz2]
  simp only [View.readAt_eq_ld, h2.read_unread, h3.read_unread, h5.read_unread, View.ld_unit_zero (S := S1x1024x1024) hz3,
    View.ld_unit_zero (S := S1024x2048) hz2, View.ld_unit_zero (S := S1024x1024) hz2]

/-! ## Over the points -/

variable (V : (c : Dev nD) → (b : Ref sig .tc) → Buf (Elt F) ((c : Thread nD τ).loc b))

/-- The accumulator after point `n` when `n` is a batch's first tile: the tile's product added to the zero block. -/
def accReset (c : Dev nD) (n : ℕ) (h : n < cfg0.N) : Vec F S1024x1024 .f32 :=
  k0_pay2 (iblk0 V c 0 ⟨n, h⟩) (iblk0 V c 1 ⟨n, h⟩) k0_pay1
/-- … and otherwise, from what the point before left. -/
def accStep (c : Dev nD) (n : ℕ) (h : n < cfg0.N) (xs : Vec F S1024x1024 .f32) : Vec F S1024x1024 .f32 :=
  k0_pay2 (iblk0 V c 0 ⟨n, h⟩) (iblk0 V c 1 ⟨n, h⟩) xs

theorem accFirstAt_eq (c : Dev nD) (t : Fin cfg0.N) (h0 : t.val % 4 = 0) (h1 : ¬t.val % 4 = 3) :
    accFirstAt V c t h0 h1 = k0_pay2 (iblk0 V c 0 t) (iblk0 V c 1 t) k0_pay1 := by
  unfold accFirstAt
  exact accFirst_eq c (grid0.coords t) (ms0_0 t) (hs0_0 t) (ms0_1 t) (hs0_1 t) (ms0_2 t) (hs0_2 t) accM (Memref.isWhole_whole _) ((isFirstTile_iff t).mpr h0) (fun h => h1 ((isLastTile_iff t).mp h)) (iblk0 V c 0 t) (iblk0 V c 1 t)
theorem accMidAt_eq (c : Dev nD) (t : Fin cfg0.N) (h0 : ¬t.val % 4 = 0) (h1 : ¬t.val % 4 = 3) (xs : Vec F S1024x1024 .f32) :
    accMidAt V c t h0 h1 xs = k0_pay2 (iblk0 V c 0 t) (iblk0 V c 1 t) xs := by
  unfold accMidAt
  exact accMid_eq c (grid0.coords t) (ms0_0 t) (hs0_0 t) (ms0_1 t) (hs0_1 t) (ms0_2 t) (hs0_2 t) accM (Memref.isWhole_whole _) (fun h => h0 ((isFirstTile_iff t).mp h)) (fun h => h1 ((isLastTile_iff t).mp h)) (iblk0 V c 0 t) (iblk0 V c 1 t) xs
theorem accLastAt_eq (c : Dev nD) (t : Fin cfg0.N) (h0 : ¬t.val % 4 = 0) (h1 : t.val % 4 = 3) (xs : Vec F S1024x1024 .f32) :
    accLastAt V c t h0 h1 xs = k0_pay2 (iblk0 V c 0 t) (iblk0 V c 1 t) xs := by
  unfold accLastAt
  exact accLast_eq c (grid0.coords t) (ms0_0 t) (hs0_0 t) (ms0_1 t) (hs0_1 t) (ms0_2 t) (hs0_2 t) accM (Memref.isWhole_whole _) (fun h => h0 ((isFirstTile_iff t).mp h)) ((isLastTile_iff t).mpr h1) (iblk0 V c 0 t) (iblk0 V c 1 t) xs
theorem outLastAt_eq (c : Dev nD) (t : Fin cfg0.N) (h0 : ¬t.val % 4 = 0) (h1 : t.val % 4 = 3) (xs : Vec F S1024x1024 .f32) :
    outLastAt V c t h0 h1 xs = k0_pay3 (k0_pay2 (iblk0 V c 0 t) (iblk0 V c 1 t) xs) := by
  unfold outLastAt
  exact outLast_eq c (grid0.coords t) (ms0_0 t) (hs0_0 t) (ms0_1 t) (hs0_1 t) (ms0_2 t) (hs0_2 t) accM (Memref.isWhole_whole _) (fun h => h0 ((isFirstTile_iff t).mp h)) ((isLastTile_iff t).mpr h1) (iblk0 V c 0 t) (iblk0 V c 1 t) xs

theorem acc_reset (c : Dev nD) (n : ℕ) (h : n < cfg0.N) (hm : n % 4 = 0) : (stateAt V c n h).2 = accReset V c n h := by
  have hm3 : ¬n % 4 = 3 := by omega
  have e : stateAt V c n h = (outIdle, accFirstAt V c ⟨n, h⟩ hm hm3) := stateAt_first V c ⟨n, h⟩ hm hm3
  rw [e]; unfold accReset; dsimp only
  exact accFirstAt_eq V c ⟨n, h⟩ hm hm3

theorem acc_step (c : Dev nD) (n : ℕ) (h : n + 1 < cfg0.N) (hm : ¬(n + 1) % 4 = 0) :
    (stateAt V c (n + 1) h).2 = accStep V c (n + 1) h (stateAt V c n (Nat.lt_of_succ_lt h)).2 := by
  by_cases h1 : (n + 1) % 4 = 3
  · have e : stateAt V c (n + 1) h = (outLastAt V c ⟨n + 1, h⟩ hm h1 (stateAt V c n (Nat.lt_of_succ_lt h)).2,
        accLastAt V c ⟨n + 1, h⟩ hm h1 (stateAt V c n (Nat.lt_of_succ_lt h)).2) := stateAt_last V c ⟨n + 1, h⟩ hm h1
    rw [e]; unfold accStep; dsimp only
    exact accLastAt_eq V c ⟨n + 1, h⟩ hm h1 _
  · have e : stateAt V c (n + 1) h = (outIdle, accMidAt V c ⟨n + 1, h⟩ hm h1 (stateAt V c n (Nat.lt_of_succ_lt h)).2) :=
      stateAt_mid V c ⟨n + 1, h⟩ hm h1
    rw [e]; unfold accStep; dsimp only
    exact accMidAt_eq V c ⟨n + 1, h⟩ hm h1 _

/-- At a batch's last tile the output window's buffer holds the softmax payload of the accumulator after that tile. -/
theorem out_last (c : Dev nD) (t : Fin cfg0.N) (h1 : t.val % 4 = 3) :
    (stateAt V c t.val t.isLt).1 = k0_pay3 (stateAt V c t.val t.isLt).2 := by
  have h0 : ¬t.val % 4 = 0 := by omega
  rw [stateAt_last V c t h0 h1]
  dsimp only
  rw [outLastAt_eq, accLastAt_eq]

end Cert.KernelIdeal.Hand

end
-- ==== Proof.KernelIdeal.MatIdx.lean ====
/-
  The body's four matrix products read at an output index, at the extended reals: each is the sum over the one
  contracted axis of the products of the operands' entries, the operands indexed by the output's coordinates and the
  summation index as the product's dimension numbers say. (The accumulator operand is the zero splat.)
-/
import proofs.«124782_j49941879718277_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.Tactic
open Idealize.ShloMosaic.Pipeline (Dat)
open Idealize.ShloMosaic.ValueIdx

theorem dProj_lhs_free (i : S1024x2048.Idx) (q : dot_S1024x1024_S1024x2048_S1024x2048_1_0_0_1_n_n.contr.Idx) : (dot_S1024x1024_S1024x2048_S1024x2048_1_0_0_1_n_n.lhsIdx i q 0).val = (i 0).val := by
  unfold DotDims.lhsIdx
  rw [dif_neg (show ¬(0 : Fin S1024x1024.rank) ∈ dot_S1024x1024_S1024x2048_S1024x2048_1_0_0_1_n_n.lhsBatch by decide), dif_pos (show (0 : Fin S1024x1024.rank) ∈ dot_S1024x1024_S1024x2048_S1024x2048_1_0_0_1_n_n.lhsNonContracting by decide)]
  rfl
theorem dProj_lhs_con (i : S1024x2048.Idx) (q : dot_S1024x1024_S1024x2048_S1024x2048_1_0_0_1_n_n.contr.Idx) : (dot_S1024x1024_S1024x2048_S1024x2048_1_0_0_1_n_n.lhsIdx i q 1).val = (q ⟨0, by decide⟩).val :=
  dot_S1024x1024_S1024x2048_S1024x2048_1_0_0_1_n_n.lhsIdx_val_of_single rfl i q
theorem dProj_rhs_free (i : S1024x2048.Idx) (q : dot_S1024x1024_S1024x2048_S1024x2048_1_0_0_1_n_n.contr.Idx) : (dot_S1024x1024_S1024x2048_S1024x2048_1_0_0_1_n_n.rhsIdx i q 1).val = (i 1).val := by
  unfold DotDims.rhsIdx
  rw [dif_neg (show ¬(1 : Fin S1024x2048.rank) ∈ dot_S1024x1024_S1024x2048_S1024x2048_1_0_0_1_n_n.rhsBatch by decide), dif_pos (show (1 : Fin S1024x2048.rank) ∈ dot_S1024x1024_S1024x2048_S1024x2048_1_0_0_1_n_n.rhsNonContracting by decide)]
  rfl
theorem dProj_rhs_con (i : S1024x2048.Idx) (q : dot_S1024x1024_S1024x2048_S1024x2048_1_0_0_1_n_n.contr.Idx) : (dot_S1024x1024_S1024x2048_S1024x2048_1_0_0_1_n_n.rhsIdx i q 0).val = (q ⟨0, by decide⟩).val :=
  dot_S1024x1024_S1024x2048_S1024x2048_1_0_0_1_n_n.rhsIdx_val_of_single rfl i q

/-- Rows of the tile times the fused weights: entry (a, b) sums over the embedding axis. -/
theorem proj_qk_apply (l : FVec Ideal S1024x1024 .bf16) (r : FVec Ideal S1024x2048 .bf16) (a : Fin 1024) (b : Fin 2048) :
    matmul dot_S1024x1024_S1024x2048_S1024x2048_1_0_0_1_n_n none l r (constant S1024x2048 .f32 0x00000000#32) (ix2 a b)
      = ∑ q : Fin 1024, l (ix2 a q) * r (ix2 q b) := by
  simp only [matmul]
  rw [Ideal.matmul_constant_zero_apply, ← Equiv.sum_comp (contrEquiv1 dot_S1024x1024_S1024x2048_S1024x2048_1_0_0_1_n_n 1024 rfl rfl).symm]
  refine Finset.sum_congr rfl fun q _ => ?_
  have hq := contrEquiv1_symm_val dot_S1024x1024_S1024x2048_S1024x2048_1_0_0_1_n_n 1024 rfl rfl q
  have el : dot_S1024x1024_S1024x2048_S1024x2048_1_0_0_1_n_n.lhsIdx (ix2 a b) ((contrEquiv1 dot_S1024x1024_S1024x2048_S1024x2048_1_0_0_1_n_n 1024 rfl rfl).symm q) = ix2 a q := funext fun ax => Fin.ext (by
    match ax with
    | ⟨0, _⟩ => exact dProj_lhs_free _ _
    | ⟨1, _⟩ => exact (dProj_lhs_con _ _).trans hq)
  have er : dot_S1024x1024_S1024x2048_S1024x2048_1_0_0_1_n_n.rhsIdx (ix2 a b) ((contrEquiv1 dot_S1024x1024_S1024x2048_S1024x2048_1_0_0_1_n_n 1024 rfl rfl).symm q) = ix2 q b := funext fun ax => Fin.ext (by
    match ax with
    | ⟨0, _⟩ => exact (dProj_rhs_con _ _).trans hq
    | ⟨1, _⟩ => exact dProj_rhs_free _ _)
  rw [el, er]

theorem dGram_lhs_free (i : S1024x1024.Idx) (q : dot_S1024x1024_S1024x1024_S1024x1024_0_0_1_1_n_n.contr.Idx) : (dot_S1024x1024_S1024x1024_S1024x1024_0_0_1_1_n_n.lhsIdx i q 1).val = (i 0).val := by
  unfold DotDims.lhsIdx
  rw [dif_neg (show ¬(1 : Fin S1024x1024.rank) ∈ dot_S1024x1024_S1024x1024_S1024x1024_0_0_1_1_n_n.lhsBatch by decide), dif_pos (show (1 : Fin S1024x1024.rank) ∈ dot_S1024x1024_S1024x1024_S1024x1024_0_0_1_1_n_n.lhsNonContracting by decide)]
  rfl
theorem dGram_lhs_con (i : S1024x1024.Idx) (q : dot_S1024x1024_S1024x1024_S1024x1024_0_0_1_1_n_n.contr.Idx) : (dot_S1024x1024_S1024x1024_S1024x1024_0_0_1_1_n_n.lhsIdx i q 0).val = (q ⟨0, by decide⟩).val :=
  dot_S1024x1024_S1024x1024_S1024x1024_0_0_1_1_n_n.lhsIdx_val_of_single rfl i q
theorem dGram_rhs_free (i : S1024x1024.Idx) (q : dot_S1024x1024_S1024x1024_S1024x1024_0_0_1_1_n_n.contr.Idx) : (dot_S1024x1024_S1024x1024_S1024x1024_0_0_1_1_n_n.rhsIdx i q 1).val = (i 1).val := by
  unfold DotDims.rhsIdx
  rw [dif_neg (show ¬(1 : Fin S1024x1024.rank) ∈ dot_S1024x1024_S1024x1024_S1024x1024_0_0_1_1_n_n.rhsBatch by decide), dif_pos (show (1 : Fin S1024x1024.rank) ∈ dot_S1024x1024_S1024x1024_S1024x1024_0_0_1_1_n_n.rhsNonContracting by decide)]
  rfl
theorem dGram_rhs_con (i : S1024x1024.Idx) (q : dot_S1024x1024_S1024x1024_S1024x1024_0_0_1_1_n_n.contr.Idx) : (dot_S1024x1024_S1024x1024_S1024x1024_0_0_1_1_n_n.rhsIdx i q 0).val = (q ⟨0, by decide⟩).val :=
  dot_S1024x1024_S1024x1024_S1024x1024_0_0_1_1_n_n.rhsIdx_val_of_single rfl i q

/-- Queries against keys, both contracted along the tile's ROWS: entry (a, b) sums over the sequence positions of the tile. -/
theorem gram_apply (l : FVec Ideal S1024x1024 .bf16) (r : FVec Ideal S1024x1024 .bf16) (a : Fin 1024) (b : Fin 1024) :
    matmul dot_S1024x1024_S1024x1024_S1024x1024_0_0_1_1_n_n none l r (constant S1024x1024 .f32 0x00000000#32) (ix2 a b)
      = ∑ q : Fin 1024, l (ix2 q a) * r (ix2 q b) := by
  simp only [matmul]
  rw [Ideal.matmul_constant_zero_apply, ← Equiv.sum_comp (contrEquiv1 dot_S1024x1024_S1024x1024_S1024x1024_0_0_1_1_n_n 1024 rfl rfl).symm]
  refine Finset.sum_congr rfl fun q _ => ?_
  have hq := contrEquiv1_symm_val dot_S1024x1024_S1024x1024_S1024x1024_0_0_1_1_n_n 1024 rfl rfl q
  have el : dot_S1024x1024_S1024x1024_S1024x1024_0_0_1_1_n_n.lhsIdx (ix2 a b) ((contrEquiv1 dot_S1024x1024_S1024x1024_S1024x1024_0_0_1_1_n_n 1024 rfl rfl).symm q) = ix2 q a := funext fun ax => Fin.ext (by
    match ax with
    | ⟨0, _⟩ => exact (dGram_lhs_con _ _).trans hq
    | ⟨1, _⟩ => exact dGram_lhs_free _ _)
  have er : dot_S1024x1024_S1024x1024_S1024x1024_0_0_1_1_n_n.rhsIdx (ix2 a b) ((contrEquiv1 dot_S1024x1024_S1024x1024_S1024x1024_0_0_1_1_n_n 1024 rfl rfl).symm q) = ix2 q b := funext fun ax => Fin.ext (by
    match ax with
    | ⟨0, _⟩ => exact (dGram_rhs_con _ _).trans hq
    | ⟨1, _⟩ => exact dGram_rhs_free _ _)
  rw [el, er]

theorem dRows_lhs_free (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem dRows_lhs_con (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem dRows_rhs_free (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl
theorem dRows_rhs_con (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q

/-- A row tile times a weight matrix (the value and the output projections): entry (a, b) sums over the shared axis. -/
theorem rows_times_apply (l : FVec Ideal S512x1024 .bf16) (r : FVec Ideal S1024x1024 .bf16) (a : Fin 512) (b : Fin 1024) :
    matmul dot_S512x1024_S1024x1024_S512x1024_1_0_0_1_n_n none l r (constant S512x1024 .f32 0x00000000#32) (ix2 a b)
      = ∑ q : Fin 1024, l (ix2 a q) * r (ix2 q b) := by
  simp only [matmul]
  rw [Ideal.matmul_constant_zero_apply, ← Equiv.sum_comp (contrEquiv1 dot_S512x1024_S1024x1024_S512x1024_1_0_0_1_n_n 1024 rfl rfl).symm]
  refine Finset.sum_congr rfl fun q _ => ?_
  have hq := contrEquiv1_symm_val dot_S512x1024_S1024x1024_S512x1024_1_0_0_1_n_n 1024 rfl rfl q
  have el : dot_S512x1024_S1024x1024_S512x1024_1_0_0_1_n_n.lhsIdx (ix2 a b) ((contrEquiv1 dot_S512x1024_S1024x1024_S512x1024_1_0_0_1_n_n 1024 rfl rfl).symm q) = ix2 a q := funext fun ax => Fin.ext (by
    match ax with
    | ⟨0, _⟩ => exact dRows_lhs_free _ _
    | ⟨1, _⟩ => exact (dRows_lhs_con _ _).trans hq)
  have er : dot_S512x1024_S1024x1024_S512x1024_1_0_0_1_n_n.rhsIdx (ix2 a b) ((contrEquiv1 dot_S512x1024_S1024x1024_S512x1024_1_0_0_1_n_n 1024 rfl rfl).symm q) = ix2 q b := funext fun ax => Fin.ext (by
    match ax with
    | ⟨0, _⟩ => exact (dRows_rhs_con _ _).trans hq
    | ⟨1, _⟩ => exact dRows_rhs_free _ _)
  rw [el, er]

theorem dCols_lhs_free (i : S512x1024.Idx) (q : dot_S512x1024_S1024x1024_S512x1024_1_1_0_0_n_n.contr.Idx) : (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem dCols_lhs_con (i : S512x1024.Idx) (q : dot_S512x1024_S1024x1024_S512x1024_1_1_0_0_n_n.contr.Idx) : (dot_S512x1024_S1024x1024_S512x1024_1_1_0_0_n_n.lhsIdx i q 1).val = (q ⟨0, by decide⟩).val :=
  dot_S512x1024_S1024x1024_S512x1024_1_1_0_0_n_n.lhsIdx_val_of_single rfl i q
theorem dCols_rhs_free (i : S512x1024.Idx) (q : dot_S512x1024_S1024x1024_S512x1024_1_1_0_0_n_n.contr.Idx) : (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem dCols_rhs_con (i : S512x1024.Idx) (q : dot_S512x1024_S1024x1024_S512x1024_1_1_0_0_n_n.contr.Idx) : (dot_S512x1024_S1024x1024_S512x1024_1_1_0_0_n_n.rhsIdx i q 1).val = (q ⟨0, by decide⟩).val :=
  dot_S512x1024_S1024x1024_S512x1024_1_1_0_0_n_n.rhsIdx_val_of_single rfl i q

/-- Values against the attention matrix, both contracted along their COLUMNS: entry (a, b) sums over the key features. -/
theorem rows_against_rows_apply (l : FVec Ideal S512x1024 .bf16) (r : FVec Ideal S1024x1024 .bf16) (a : Fin 512) (b : Fin 1024) :
    matmul dot_S512x1024_S1024x1024_S512x1024_1_1_0_0_n_n none l r (constant S512x1024 .f32 0x00000000#32) (ix2 a b)
      = ∑ q : Fin 1024, l (ix2 a q) * r (ix2 b q) := by
  simp only [matmul]
  rw [Ideal.matmul_constant_zero_apply, ← Equiv.sum_comp (contrEquiv1 dot_S512x1024_S1024x1024_S512x1024_1_1_0_0_n_n 1024 rfl rfl).symm]
  refine Finset.sum_congr rfl fun q _ => ?_
  have hq := contrEquiv1_symm_val dot_S512x1024_S1024x1024_S512x1024_1_1_0_0_n_n 1024 rfl rfl q
  have el : dot_S512x1024_S1024x1024_S512x1024_1_1_0_0_n_n.lhsIdx (ix2 a b) ((contrEquiv1 dot_S512x1024_S1024x1024_S512x1024_1_1_0_0_n_n 1024 rfl rfl).symm q) = ix2 a q := funext fun ax => Fin.ext (by
    match ax with
    | ⟨0, _⟩ => exact dCols_lhs_free _ _
    | ⟨1, _⟩ => exact (dCols_lhs_con _ _).trans hq)
  have er : dot_S512x1024_S1024x1024_S512x1024_1_1_0_0_n_n.rhsIdx (ix2 a b) ((contrEquiv1 dot_S512x1024_S1024x1024_S512x1024_1_1_0_0_n_n 1024 rfl rfl).symm q) = ix2 b q := funext fun ax => Fin.ext (by
    match ax with
    | ⟨0, _⟩ => exact dCols_rhs_free _ _
    | ⟨1, _⟩ => exact (dCols_rhs_con _ _).trans hq)
  rw [el, er]

end Cert.KernelIdeal.Hand

end
-- ==== Proof.KernelIdeal.PayAcc.lean ====
/-
  The accumulator's payload read at an index, at the extended reals (where a change of float format is the identity):
  what it held, plus the sum over the tile's rows of (query entry) · (key entry), each entry a sum over the embedding
  axis of the row of x against a column of the fused weights — the query weights in the fused matrix's first 1024
  columns, the key weights in its last 1024.
-/
import proofs.«124782_j49941879718277_2_alg».proof.Proof.KernelIdeal.MatIdx
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.Tactic
open Idealize.ShloMosaic.Pipeline (Dat)
open Idealize.ShloMosaic.ValueIdx

/-- A column of the fused weights holding a QUERY feature, and one holding a KEY feature. -/
abbrev colQ (k : Fin 1024) : Fin 2048 := ⟨k.val, Nat.lt_of_lt_of_le k.isLt (by decide)⟩
abbrev colK (j : Fin 1024) : Fin 2048 := ⟨1024 + j.val, by have := j.isLt; omega⟩

/-- The accumulator's payload at (k, j). -/
theorem pay2_apply (x0 : Vec Ideal S1x1024x1024 .f32) (x1 : Vec Ideal S1024x2048 .bf16) (xs : Vec Ideal S1024x1024 .f32) (k j : Fin 1024) :
    k0_pay2 (F := Ideal) x0 x1 xs (ix2 k j)
      = xs (ix2 k j) + ∑ l : Fin 1024, (∑ e : Fin 1024, x0 (ix3 (0 : Fin 1) l e) * x1 (ix2 e (colQ k)))
          * (∑ e : Fin 1024, x0 (ix3 (0 : Fin 1) l e) * x1 (ix2 e (colK j))) := by
  unfold k0_pay2
  simp only [shapeCast_self]
  rw [addf_apply, gram_apply]
  refine congrArg (xs (ix2 k j) + ·) (Finset.sum_congr rfl fun l _ => ?_)
  rw [truncf_apply, truncf_apply,
    slice2_axis1_apply 0 _ _ l k (colQ k) (Nat.zero_add _).symm, slice2_axis1_apply 1024 _ _ l j (colK j) rfl,
    proj_qk_apply, proj_qk_apply]
  refine congrArg₂ (· * ·) (Finset.sum_congr rfl fun e _ => ?_) (Finset.sum_congr rfl fun e _ => ?_) <;>
    rw [truncf_apply, shapeCast_1ab_ab_apply]

end Cert.KernelIdeal.Hand

end
-- ==== Proof.KernelIdeal.Softmax.lean ====
/-
  The row softmax, and the softmax payload read at an index at the extended reals: row k of the accumulator scaled, its
  running maximum (taken from −∞) subtracted, exponentiated, and divided by the row's sum.
-/
import proofs.«124782_j49941879718277_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.Tactic
open Idealize.ShloMosaic.Pipeline (Dat)
open Idealize.ShloMosaic.ValueIdx

theorem exp_apply {s : Shape} {φ : FTy} (a : FVec Ideal s φ) (i : s.Idx) : exp a i = Ideal.exp (a i) := rfl

/-- A row's running maximum as the body takes it: from −∞ over the row, then once more against −∞. -/
def rowMax (r : Fin 1024 → EReal) : EReal :=
  max (Ideal.ofBits .f32 0xFF800000#32) ((Finset.univ : Finset (Fin 1024)).fold max (Ideal.ofBits .f32 0xFF800000#32) r)
/-- The softmax of a row, entry j. -/
def rowSoftmax (r : Fin 1024 → EReal) (j : Fin 1024) : EReal :=
  Ideal.div (Ideal.exp (r j - rowMax r)) (∑ j' : Fin 1024, Ideal.exp (r j' - rowMax r))

/-- A reduced row index with the column put back. -/
theorem lift_row (h : S1024x1024.Reduces [1] S1024) (k : Fin 1024) (j : Fin (S1024x1024.size 1)) :
    h.lift (ix1 k) j = ix2 k (⟨j.val, j.isLt⟩ : Fin 1024) := by
  funext c; apply Fin.ext
  fin_cases c <;> rfl

theorem rowmax_apply (x : FVec Ideal S1024x1024 .f32) (h : S1024x1024.Reduces [1] S1024) (hφ : FKind.Formats .f32)
    (hacc : (0xFF800000#32 : BitVec 32) = FKind.maximumf.neutral .f32 hφ) (k : Fin 1024) :
    multiReduction .maximumf [1] S1024 x 0xFF800000#32 h hφ hacc (ix1 k)
      = (Finset.univ : Finset (Fin 1024)).fold max (Ideal.ofBits .f32 0xFF800000#32) (fun j => x (ix2 k j)) := by
  rw [Ideal.multiReduction_maximumf_single]
  have hf : (x ∘ h.lift (ix1 k)) = fun j : Fin 1024 => x (ix2 k j) := funext fun j => congrArg x (lift_row h k j)
  exact congrArg (fun f => Finset.fold max (Ideal.ofBits .f32 0xFF800000#32) f (Finset.univ : Finset (Fin 1024))) hf

theorem rowsum_apply (x : FVec Ideal S1024x1024 .f32) (h : S1024x1024.Reduces [1] S1024) (hφ : FKind.Formats .f32)
    (hacc : (0x00000000#32 : BitVec 32) = FKind.add.neutral .f32 hφ) (k : Fin 1024) :
    multiReduction .add [1] S1024 x 0x00000000#32 h hφ hacc (ix1 k) = ∑ j : Fin 1024, x (ix2 k j) := by
  rw [Ideal.multiReduction_add_single]
  exact Finset.sum_congr rfl fun j _ => congrArg x (lift_row h k j)

/-- A vector of row values put back on every column of its row: a keepdims reduction's result broadcast. -/
theorem col_bcast_apply {α : Type} (w : S1024.Idx → α) (h1 : S1024.ShapeCasts S1024x1) (h2 : S1024x1.Broadcasts S1024x1024) (k j : Fin 1024) :
    broadcastTo S1024x1024 (shapeCast S1024x1 w h1) h2 (ix2 k j) = w (ix1 k) := by
  rw [broadcastTo_apply _ h2 (ix2 k j) (ix2 k (0 : Fin 1)) (fun a => by
    match a with
    | ⟨0, _⟩ => exact (if_neg (show ¬(1024 : ℕ) = 1 by decide)).symm
    | ⟨1, _⟩ => exact (if_pos rfl).symm)]
  exact shapeCast_apply w h1 _ _ (by
    rw [Shape.rowMajor_val_one, Shape.rowMajor_val_two]
    show k.val = k.val * 1 + 0
    omega)

/-! ## The payload's stages -/

/-- The accumulator scaled. -/
def scaled (v : Vec Ideal S1024x1024 .f32) : FVec Ideal S1024x1024 .f32 :=
  mulf v (broadcast S1024x1024 (Scalar.ofBits .f32 0x3D000000#32))
/-- Each row's running maximum. -/
def rowMaxes (v : Vec Ideal S1024x1024 .f32) : FVec Ideal S1024 .f32 :=
  maximumf (broadcast S1024 (Scalar.ofBits .f32 0xFF800000#32))
    (multiReduction .maximumf [1] S1024 (scaled v) 0xFF800000#32 reduces_S1024x1024_S1024 (.inl rfl) rfl)
/-- The shifted exponentials. -/
def expd (v : Vec Ideal S1024x1024 .f32) : FVec Ideal S1024x1024 .f32 :=
  exp (subf (scaled v) (broadcastTo S1024x1024 (shapeCast S1024x1 (rowMaxes v) shapeCasts_S1024_S1024x1) broadcasts_S1024x1_S1024x1024))

/-- The softmax payload is the shifted exponentials over their row sums (its definition, with the stages named). -/
theorem pay3_stages (v : Vec Ideal S1024x1024 .f32) :
    k0_pay3 (F := Ideal) v = shapeCast S1x1024x1024 (divf (expd v) (broadcastTo S1024x1024 (shapeCast S1024x1
      (multiReduction .add [1] S1024 (expd v) 0x00000000#32 reduces_S1024x1024_S1024 (.inl rfl) rfl) shapeCasts_S1024_S1024x1)
        broadcasts_S1024x1_S1024x1024)) shapeCasts_S1024x1024_S1x1024x1024 := rfl

theorem scaled_apply (v : Vec Ideal S1024x1024 .f32) (k j : Fin 1024) :
    scaled v (ix2 k j) = v (ix2 k j) * Ideal.ofBits .f32 0x3D000000#32 := rfl

/-- The −∞ splat at a row. -/
theorem negInf_splat (k : Fin 1024) :
    broadcast S1024 (Scalar.ofBits .f32 0xFF800000#32 : Ideal .f32) (ix1 k) = Ideal.ofBits .f32 0xFF800000#32 := rfl

theorem rowMaxes_apply (v : Vec Ideal S1024x1024 .f32) (k : Fin 1024) :
    rowMaxes v (ix1 k) = rowMax (fun j => v (ix2 k j) * Ideal.ofBits .f32 0x3D000000#32) := by
  unfold rowMaxes rowMax
  rw [maximumf_apply, negInf_splat]
  exact congrArg (max _) ((rowmax_apply (scaled v) reduces_S1024x1024_S1024 (.inl rfl) rfl k).trans
    (congrArg (fun f => Finset.fold max (Ideal.ofBits .f32 0xFF800000#32) f (Finset.univ : Finset (Fin 1024)))
      (funext fun j => scaled_apply v k j)))

theorem expd_apply (v : Vec Ideal S1024x1024 .f32) (k j : Fin 1024) :
    expd v (ix2 k j) = Ideal.exp (v (ix2 k j) * Ideal.ofBits .f32 0x3D000000#32 - rowMax (fun j => v (ix2 k j) * Ideal.ofBits .f32 0x3D000000#32)) := by
  unfold expd
  rw [exp_apply, subf_apply, col_bcast_apply, rowMaxes_apply, scaled_apply]

/-- The softmax payload at (·, k, j): the row softmax of row k of the scaled accumulator. -/
theorem pay3_apply (v : Vec Ideal S1024x1024 .f32) (u : Fin 1) (k j : Fin 1024) :
    k0_pay3 (F := Ideal) v (ix3 u k j) = rowSoftmax (fun j' => v (ix2 k j') * Ideal.ofBits .f32 0x3D000000#32) j := by
  rw [pay3_stages, shapeCast_ab_1ab_apply, divf_apply, col_bcast_apply]
  unfold rowSoftmax
  exact congrArg₂ Ideal.div (expd_apply v k j)
    ((rowsum_apply (expd v) reduces_S1024x1024_S1024 (.inl rfl) rfl k).trans (Finset.sum_congr rfl fun j' _ => expd_apply v k j'))

end Cert.KernelIdeal.Hand

end
-- ==== Proof.KernelIdeal.Att.lean ====
/-
  The first region's result array as one function of the arrays the region finds. The accumulator after a batch's last
  tile is the zero block plus the four tiles' products (the fold over the batch's points, unrolled at an index); a
  tile's product reads x at rows 1024·(tile) + l of the batch and the fused weights whole; the batch's block of the
  output array holds the row softmax of the scaled accumulator; the four batches' blocks tile the array.
-/
import proofs.«124782_j49941879718277_2_alg».proof.Proof.KernelIdeal.Run
import proofs.«124782_j49941879718277_2_alg».proof.Proof.KernelIdeal.Acc
import proofs.«124782_j49941879718277_2_alg».proof.Proof.KernelIdeal.PayAcc
import proofs.«124782_j49941879718277_2_alg».proof.Proof.KernelIdeal.Softmax
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.Tactic
open Idealize.ShloMosaic.Pipeline (Dat)
open Idealize.ShloMosaic.ValueIdx

variable (V : (c : Dev nD) → (b : Ref sig .tc) → Buf (Elt Ideal) ((c : Thread nD τ).loc b))

/-- The zero block. -/
theorem pay1_apply (i : S1024x1024.Idx) : k0_pay1 (F := Ideal) i = 0 := by
  unfold k0_pay1
  simp only [shapeCast_self]
  exact Ideal.ofBits_zero_f32

/-- One tile's product at (k, j): over the tile's rows, (row · query column k) · (row · key column j). -/
def tileProd (x : Vec Ideal S1x1024x1024 .f32) (w : Vec Ideal S1024x2048 .bf16) (i : S1024x1024.Idx) : EReal :=
  ∑ l : Fin 1024, (∑ e : Fin 1024, x (ix3 (0 : Fin 1) l e) * w (ix2 e (colQ (i 0))))
    * (∑ e : Fin 1024, x (ix3 (0 : Fin 1) l e) * w (ix2 e (colK (i 1))))

theorem pay2_tile (x : Vec Ideal S1x1024x1024 .f32) (w : Vec Ideal S1024x2048 .bf16) (xs : Vec Ideal S1024x1024 .f32) (i : S1024x1024.Idx) :
    k0_pay2 (F := Ideal) x w xs i = xs i + tileProd x w i := by
  obtain ⟨k, j, rfl⟩ : ∃ k j : Fin 1024, i = ix2 k j := ⟨i 0, i 1, eq_ix2 i⟩
  exact pay2_apply x w xs k j

/-- Point `n`'s addend (zero past the grid, where it is never used). -/
def addend (c : Dev nD) (n : ℕ) (i : S1024x1024.Idx) : EReal :=
  if h : n < cfg0.N then tileProd (iblk0 V c 0 ⟨n, h⟩) (iblk0 V c 1 ⟨n, h⟩) i else 0

theorem accReset_apply (c : Dev nD) (n : ℕ) (h : n < cfg0.N) (i : S1024x1024.Idx) : accReset V c n h i = 0 + addend V c n i := by
  unfold accReset addend; rw [dif_pos h, pay2_tile, pay1_apply]
theorem accStep_apply (c : Dev nD) (n : ℕ) (h : n < cfg0.N) (acc : Vec Ideal S1024x1024 .f32) (i : S1024x1024.Idx) :
    accStep V c n h acc i = acc i + addend V c n i := by
  unfold accStep addend; rw [dif_pos h, pay2_tile]

/-- The accumulator after point `t`: zero plus the addends of its batch's points up to `t`. -/
theorem acc_unrolled (c : Dev nD) (t : Fin cfg0.N) (i : S1024x1024.Idx) :
    (stateAt V c t.val t.isLt).2 i = 0 + ∑ s ∈ Finset.range (t.val % 4 + 1), addend V c (4 * (t.val / 4) + s) i := by
  have hN : cfg0.N = 16 := N_0
  have h' : 4 * (t.val / 4) + t.val % 4 < cfg0.N := by have := t.isLt; omega
  refine (congrFun (Pipeline.eq_accAt_of_mod (fun n h => (stateAt V c n h).2) 4 (accReset V c) (accStep V c)
    (fun n h hm => acc_reset V c n h hm) (fun n h hm => acc_step V c n h hm) (by decide) t.val t.isLt h') i).trans ?_
  exact Pipeline.accAt_add_apply (accReset V c) (accStep V c) (fun _ => 0) (addend V c) (4 * (t.val / 4)) 3
    (fun h i => accReset_apply V c _ h i) (fun n h acc i _ _ => accStep_apply V c n h acc i) (t.val % 4) (by have := Nat.mod_lt t.val (by decide : 0 < 4); omega) h' i

/-! ## The blocks -/

abbrev arrX (c : Dev nD) : S4x4096x1024.Idx → EReal := V c main_arg0
abbrev arrW (c : Dev nD) : S1024x2048.Idx → EReal := V c main_v4

theorem idx0_x : ∀ t : Fin cfg0.N, win0_0.index t (0 : Fin 3) = t.val / 4 ∧ win0_0.index t (1 : Fin 3) = t.val % 4 ∧ win0_0.index t (2 : Fin 3) = 0 :=
  (by decide +kernel : ∀ t : Fin grid0.N, win0_0.index t (0 : Fin 3) = t.val / 4 ∧ win0_0.index t (1 : Fin 3) = t.val % 4 ∧ win0_0.index t (2 : Fin 3) = 0)
theorem idx0_w : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx0_o : ∀ t : Fin cfg0.N, win0_2.index t (0 : Fin 3) = t.val / 4 ∧ win0_2.index t (1 : Fin 3) = 0 ∧ win0_2.index t (2 : Fin 3) = 0 :=
  (by decide +kernel : ∀ t : Fin grid0.N, win0_2.index t (0 : Fin 3) = t.val / 4 ∧ win0_2.index t (1 : Fin 3) = 0 ∧ win0_2.index t (2 : Fin 3) = 0)

/-- The tile of x at point `t`: batch t / 4, rows 1024·(t mod 4) + l. -/
theorem xblk0_apply (c : Dev nD) (t : Fin cfg0.N) (l e : Fin 1024) (i : S4x4096x1024.Idx)
    (h0 : (i 0).val = t.val / 4) (h1 : (i 1).val = 1024 * (t.val % 4) + l.val) (h2 : (i 2).val = e.val) :
    iblk0 V c 0 t (ix3 (0 : Fin 1) l e) = arrX V c i := by
  obtain ⟨e0, e1, e2⟩ := idx0_x t
  show V c main_arg0 (((cfg0.win 0).blk t).view.emb (ix3 (0 : Fin 1) l e)) = V c main_arg0 i
  refine congrArg _ (funext fun a => Fin.ext ?_)
  match a with
  | ⟨0, _⟩ => show win0_0.index t (0 : Fin 3) * 1 + 1 * (0 : Fin 1).val = (i 0).val; rw [e0, h0]; simp
  | ⟨1, _⟩ => show win0_0.index t (1 : Fin 3) * 1024 + 1 * l.val = (i 1).val; rw [e1, h1]; omega
  | ⟨2, _⟩ => show win0_0.index t (2 : Fin 3) * 1024 + 1 * e.val = (i 2).val; rw [e2, h2]; omega

/-- The fused weights are staged whole. -/
theorem wblk0_apply (c : Dev nD) (t : Fin cfg0.N) (e : Fin 1024) (q : Fin 2048) : iblk0 V c 1 t (ix2 e q) = arrW V c (ix2 e q) := by
  obtain ⟨e0, e1⟩ := idx0_w t
  show V c main_v4 (((cfg0.win 1).blk t).view.emb (ix2 e q)) = V c main_v4 (ix2 e q)
  refine congrArg _ (funext fun a => Fin.ext ?_)
  match a with
  | ⟨0, _⟩ => show win0_1.index t (0 : Fin 2) * 1024 + 1 * e.val = e.val; rw [e0]; omega
  | ⟨1, _⟩ => show win0_1.index t (1 : Fin 2) * 2048 + 1 * q.val = q.val; rw [e1]; omega

/-- Row l of tile s of a batch, as a row of the sequence. -/
abbrev tileRow (s : ℕ) (l : Fin 1024) : Fin 4096 :=
  ⟨1024 * (s % 4) + l.val, by have := l.isLt; have := Nat.mod_lt s (by decide : 0 < 4); omega⟩

/-- Tile s of batch b, as a function of the whole arrays. -/
def tileOf (X : S4x4096x1024.Idx → EReal) (W : S1024x2048.Idx → EReal) (b : Fin 4) (s : ℕ) (k j : Fin 1024) : EReal :=
  ∑ l : Fin 1024, (∑ e : Fin 1024, X (ix3 b (tileRow s l) e) * W (ix2 e (colQ k))) * (∑ e : Fin 1024, X (ix3 b (tileRow s l) e) * W (ix2 e (colK j)))

theorem addend_apply (c : Dev nD) (b : Fin 4) (s : ℕ) (hs : s < 4) (k j : Fin 1024) :
    addend V c (4 * b.val + s) (ix2 k j) = tileOf (arrX V c) (arrW V c) b s k j := by
  have hN : cfg0.N = 16 := N_0
  have h : 4 * b.val + s < cfg0.N := by have := b.isLt; omega
  unfold addend; rw [dif_pos h]; unfold tileProd tileOf
  refine Finset.sum_congr rfl fun l _ => ?_
  refine congrArg₂ (· * ·) (Finset.sum_congr rfl fun e _ => ?_) (Finset.sum_congr rfl fun e _ => ?_) <;>
    rw [xblk0_apply V c ⟨4 * b.val + s, h⟩ l e (ix3 b (tileRow s l) e) (by show b.val = (4 * b.val + s) / 4; omega)
      (by show 1024 * (s % 4) + l.val = 1024 * ((4 * b.val + s) % 4) + l.val; omega) rfl, wblk0_apply]

/-! ## The attention array -/

/-- What the first region's output array ends holding: per batch, the row softmax of the scaled sum of the four tiles. -/
def attOf (X : S4x4096x1024.Idx → EReal) (W : S1024x2048.Idx → EReal) : S4x1024x1024.Idx → EReal := fun i =>
  rowSoftmax (fun j' => (0 + ∑ s ∈ Finset.range 4, tileOf X W (i 0) s (i 1) j') * Ideal.ofBits .f32 0x3D000000#32) (i 2)

/-- A batch's block, from its accumulator: stated over variables of the literal types. -/
theorem att_block (X : S4x4096x1024.Idx → EReal) (W : S1024x2048.Idx → EReal) (acc : Vec Ideal S1024x1024 .f32) (b : Fin 4)
    (hacc : ∀ k j : Fin 1024, acc (ix2 k j) = 0 + ∑ s ∈ Finset.range 4, tileOf X W b s k j)
    (y : S1x1024x1024.Idx) (i : S4x1024x1024.Idx) (h0 : (i 0).val = b.val) (h1 : (i 1).val = (y 1).val) (h2 : (i 2).val = (y 2).val) :
    k0_pay3 (F := Ideal) acc y = attOf X W i := by
  obtain ⟨u, k, j, rfl⟩ : ∃ (u : Fin 1) (k j : Fin 1024), y = ix3 u k j := ⟨y 0, y 1, y 2, eq_ix3 y⟩
  have e0 : i 0 = b := Fin.ext h0
  have e1 : i 1 = k := Fin.ext h1
  have e2 : i 2 = j := Fin.ext h2
  rw [pay3_apply]
  unfold attOf
  rw [e0, e1, e2]
  exact congrArg (fun f => rowSoftmax f j) (funext fun j' => by rw [hacc])

end Cert.KernelIdeal.Hand

end
-- ==== Proof.KernelIdeal.AttArr.lean ====
/-
  The first region's output array after the region: only a batch's last tile writes the batch's block back, and it
  holds the row softmax of the scaled accumulator, the accumulator being zero plus the batch's four tile products; the
  four batches' blocks cover the array.
-/
import proofs.«124782_j49941879718277_2_alg».proof.Proof.KernelIdeal.Att
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.Tactic
open Idealize.ShloMosaic.Pipeline (Dat)
open Idealize.ShloMosaic.ValueIdx

variable (V : (c : Dev nD) → (b : Ref sig .tc) → Buf (Elt Ideal) ((c : Thread nD τ).loc b))

/-- A batch's last tile writes back that batch's block of `attOf` of the arrays as the region finds them. -/
theorem flushed0_eq (c : Dev nD) (t : Fin cfg0.N) (hf : (cfg0.win 2).flush t = true) :
    (dat0 V c).flushed 2 t = ((cfg0.win 2).blk t).view.read (Elt Ideal) (attOf (arrX V c) (arrW V c)) := by
  have h3 : t.val % 4 = 3 := (flush0_2 t).mp hf
  have hN : cfg0.N = 16 := N_0
  have ht := t.isLt
  show (cfg0.win 2).cut (grid0.coords t) ((dat0 V c).after 2 t) = _
  rw [after0_2, out_last V c t h3]
  obtain ⟨o0, o1, o2⟩ := idx0_o t
  funext y
  have hy0 : (y 0).val < 1 := (y 0).isLt
  have hy1 : (y 1).val < 1024 := (y 1).isLt
  have hy2 : (y 2).val < 1024 := (y 2).isLt
  refine att_block (arrX V c) (arrW V c) (stateAt V c t.val t.isLt).2 ⟨t.val / 4, by omega⟩ ?_ y (((cfg0.win 2).blk t).view.emb y) ?_ ?_ ?_
  · intro k j
    rw [acc_unrolled V c t (ix2 k j), h3]
    refine congrArg (0 + ·) (Finset.sum_congr rfl fun s hs => ?_)
    exact addend_apply V c ⟨t.val / 4, by omega⟩ s (Finset.mem_range.mp hs) k j
  · show win0_2.index t (0 : Fin 3) * 1 + 1 * (y 0).val = t.val / 4; omega
  · show win0_2.index t (1 : Fin 3) * 1024 + 1 * (y 1).val = (y 1).val; omega
  · show win0_2.index t (2 : Fin 3) * 1024 + 1 * (y 2).val = (y 2).val; omega

theorem mem_blk0 (t : Fin cfg0.N) (i : S4x1024x1024.Idx) :
    i ∈ ((cfg0.win 2).blk t).view.set ↔ ∀ a : Fin 3, win0_2.index t a * S1x1024x1024.size a ≤ (i a).val ∧ (i a).val < win0_2.index t a * S1x1024x1024.size a + S1x1024x1024.size a := by
  show i ∈ ((View.whole main_v9).slice (win0_2.rect t)).set ↔ _
  rw [View.set_slice_whole, Rect.mem_set_unit]
  exact Iff.rfl

/-- Every entry of the array is in the block the batch's last tile writes back. -/
theorem cover0 (i : S4x1024x1024.Idx) : ∃ t : Fin cfg0.N, (cfg0.win 2).flush t = true ∧ i ∈ ((cfg0.win 2).blk t).view.set := by
  have hN : cfg0.N = 16 := N_0
  have hi0 : (i 0).val < 4 := (i 0).isLt
  have hi1 : (i 1).val < 1024 := (i 1).isLt
  have hi2 : (i 2).val < 1024 := (i 2).isLt
  refine ⟨⟨4 * (i 0).val + 3, by omega⟩, (flush0_2 _).mpr (by show (4 * (i 0).val + 3) % 4 = 3; omega), ?_⟩
  rw [mem_blk0]
  obtain ⟨o0, o1, o2⟩ := idx0_o ⟨4 * (i 0).val + 3, by omega⟩
  intro a
  match a with
  | ⟨0, _⟩ => show win0_2.index _ (0 : Fin 3) * 1 ≤ (i 0).val ∧ (i 0).val < win0_2.index _ (0 : Fin 3) * 1 + 1; rw [o0]; dsimp only; omega
  | ⟨1, _⟩ => show win0_2.index _ (1 : Fin 3) * 1024 ≤ (i 1).val ∧ (i 1).val < win0_2.index _ (1 : Fin 3) * 1024 + 1024; rw [o1]; omega
  | ⟨2, _⟩ => show win0_2.index _ (2 : Fin 3) * 1024 ≤ (i 2).val ∧ (i 2).val < win0_2.index _ (2 : Fin 3) * 1024 + 1024; rw [o2]; omega

/-- The output array after the region. -/
theorem final0 (c : Dev nD) : (dat0 V c).arrAt 2 cfg0.N = attOf (arrX V c) (arrW V c) :=
  (dat0 V c).arrAt_eq_of_cover 2 _ (flushed0_eq V c) cover0

end Cert.KernelIdeal.Hand

end
-- ==== Proof.KernelIdeal.PayAV.lean ====
/-
  The second region's payload read at an index, at the extended reals: the row of x against the value weights, that
  against the batch's attention rows, and the result against the output weights — three nested sums over 1024.
-/
import proofs.«124782_j49941879718277_2_alg».proof.Proof.KernelIdeal.MatIdx
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.Tactic
open Idealize.ShloMosaic.Pipeline (Dat)
open Idealize.ShloMosaic.ValueIdx

theorem pay_av_apply (x0 : Vec Ideal S1x512x1024 .f32) (wv : Vec Ideal S1024x1024 .bf16) (att : Vec Ideal S1x1024x1024 .f32) (wo : Vec Ideal S1024x1024 .bf16)
    (u : Fin 1) (r : Fin 512) (e : Fin 1024) :
    k1_pay1 (F := Ideal) x0 wv att wo (ix3 u r e)
      = ∑ k : Fin 1024, (∑ j : Fin 1024, (∑ e' : Fin 1024, x0 (ix3 (0 : Fin 1) r e') * wv (ix2 e' j)) * att (ix3 (0 : Fin 1) k j)) * wo (ix2 k e) := by
  unfold k1_pay1
  simp only [shapeCast_self]
  rw [shapeCast_ab_1ab_apply, rows_times_apply]
  refine Finset.sum_congr rfl fun k _ => ?_
  rw [truncf_apply, rows_against_rows_apply]
  refine congrArg (· * wo (ix2 k e)) (Finset.sum_congr rfl fun j _ => ?_)
  rw [truncf_apply, truncf_apply, rows_times_apply, shapeCast_1ab_ab_apply]
  refine congrArg (· * att (ix3 (0 : Fin 1) k j)) (Finset.sum_congr rfl fun e' _ => ?_)
  rw [truncf_apply, shapeCast_1ab_ab_apply]

end Cert.KernelIdeal.Hand

end
-- ==== Proof.KernelIdeal.Out.lean ====
/-
  The second region's result array as one function of the arrays the region finds: entry (b, l, e) is
  Σ_k (Σ_j (Σ_e' x[b,l,e'] · Wv'[e',j]) · att[b,k,j]) · Wo'[k,e] — the row of x against the (transposed) value weights,
  that against the batch's attention rows, the result against the (transposed) output weights. Each grid point writes
  back one [512, 1024] row tile of one batch; the tiles cover the array.
-/
import proofs.«124782_j49941879718277_2_alg».proof.Proof.KernelIdeal.Run
import proofs.«124782_j49941879718277_2_alg».proof.Proof.KernelIdeal.PayAV
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.Tactic
open Idealize.ShloMosaic.Pipeline (Dat)
open Idealize.ShloMosaic.ValueIdx

variable (V : (c : Dev nD) → (b : Ref sig .tc) → Buf (Elt Ideal) ((c : Thread nD τ).loc b))

theorem hz2' : (![0, 0] : Fin 2 → Nat) = fun _ => 0 := funext fun a => by fin_cases a <;> rfl
theorem hz3' : (![0, 0, 0] : Fin 3 → Nat) = fun _ => 0 := funext fun a => by fin_cases a <;> rfl

abbrev arrX1 (c : Dev nD) : S4x4096x1024.Idx → EReal := V c main_arg0
abbrev arrWv (c : Dev nD) : S1024x1024.Idx → EReal := V c main_v6
abbrev arrWo (c : Dev nD) : S1024x1024.Idx → EReal := V c main_v8
abbrev arrAtt (c : Dev nD) : S4x1024x1024.Idx → EReal := V c main_v9

/-- The result array's entries. -/
def outOf (X : S4x4096x1024.Idx → EReal) (Wv : S1024x1024.Idx → EReal) (Att : S4x1024x1024.Idx → EReal) (Wo : S1024x1024.Idx → EReal) :
    S4x4096x1024.Idx → EReal := fun i =>
  ∑ k : Fin 1024, (∑ j : Fin 1024, (∑ e' : Fin 1024, X (ix3 (i 0) (i 1) e') * Wv (ix2 e' j)) * Att (ix3 (i 0) k j)) * Wo (ix2 k (i 2))

/-- One row tile, from its input blocks: stated over variables of the literal types. -/
theorem out_block (X : S4x4096x1024.Idx → EReal) (Wv : S1024x1024.Idx → EReal) (Att : S4x1024x1024.Idx → EReal) (Wo : S1024x1024.Idx → EReal)
    (x0 : Vec Ideal S1x512x1024 .f32) (wv : Vec Ideal S1024x1024 .bf16) (att : Vec Ideal S1x1024x1024 .f32) (wo : Vec Ideal S1024x1024 .bf16)
    (y : S1x512x1024.Idx) (i : S4x4096x1024.Idx)
    (hx : ∀ e' : Fin 1024, x0 (ix3 (0 : Fin 1) (y 1) e') = X (ix3 (i 0) (i 1) e'))
    (hwv : ∀ (e' j : Fin 1024), wv (ix2 e' j) = Wv (ix2 e' j)) (hwo : ∀ (k e : Fin 1024), wo (ix2 k e) = Wo (ix2 k e))
    (hatt : ∀ (k j : Fin 1024), att (ix3 (0 : Fin 1) k j) = Att (ix3 (i 0) k j))
    (h2 : (i 2).val = (y 2).val) :
    k1_pay1 (F := Ideal) x0 wv att wo y = outOf X Wv Att Wo i := by
  obtain ⟨u, r, e, rfl⟩ : ∃ (u : Fin 1) (r : Fin 512) (e : Fin 1024), y = ix3 u r e := ⟨y 0, y 1, y 2, eq_ix3 y⟩
  have e2 : i 2 = e := Fin.ext h2
  rw [pay_av_apply]; unfold outOf
  rw [e2]
  refine Finset.sum_congr rfl fun k _ => ?_
  refine congrArg₂ (· * ·) (Finset.sum_congr rfl fun j _ => ?_) (hwo k e)
  refine congrArg₂ (· * ·) (Finset.sum_congr rfl fun e' _ => ?_) (hatt k j)
  exact congrArg₂ (· * ·) (hx e') (hwv e' j)

/-! ## The blocks -/

theorem idx1_x : ∀ t : Fin cfg1.N, win1_0.index t (0 : Fin 3) = t.val / 8 ∧ win1_0.index t (1 : Fin 3) = t.val % 8 ∧ win1_0.index t (2 : Fin 3) = 0 :=
  (by decide +kernel : ∀ t : Fin grid1.N, win1_0.index t (0 : Fin 3) = t.val / 8 ∧ win1_0.index t (1 : Fin 3) = t.val % 8 ∧ win1_0.index t (2 : Fin 3) = 0)
theorem idx1_wv : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem idx1_wo : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem idx1_att : ∀ t : Fin cfg1.N, win1_3.index t (0 : Fin 3) = t.val / 8 ∧ win1_3.index t (1 : Fin 3) = 0 ∧ win1_3.index t (2 : Fin 3) = 0 :=
  (by decide +kernel : ∀ t : Fin grid1.N, win1_3.index t (0 : Fin 3) = t.val / 8 ∧ win1_3.index t (1 : Fin 3) = 0 ∧ win1_3.index t (2 : Fin 3) = 0)
theorem idx1_o : ∀ t : Fin cfg1.N, win1_4.index t (0 : Fin 3) = t.val / 8 ∧ win1_4.index t (1 : Fin 3) = t.val % 8 ∧ win1_4.index t (2 : Fin 3) = 0 :=
  (by decide +kernel : ∀ t : Fin grid1.N, win1_4.index t (0 : Fin 3) = t.val / 8 ∧ win1_4.index t (1 : Fin 3) = t.val % 8 ∧ win1_4.index t (2 : Fin 3) = 0)

/-- The row tile of x at point `t`: batch t / 8, rows 512·(t mod 8) + r. -/
theorem xblk1_apply (c : Dev nD) (t : Fin cfg1.N) (r : Fin 512) (e : Fin 1024) (i : S4x4096x1024.Idx)
    (h0 : (i 0).val = t.val / 8) (h1 : (i 1).val = 512 * (t.val % 8) + r.val) (h2 : (i 2).val = e.val) :
    iblk1 V c 0 t (ix3 (0 : Fin 1) r e) = arrX1 V c i := by
  obtain ⟨e0, e1, e2⟩ := idx1_x t
  show V c main_arg0 (((cfg1.win 0).blk t).view.emb (ix3 (0 : Fin 1) r e)) = V c main_arg0 i
  refine congrArg _ (funext fun a => Fin.ext ?_)
  match a with
  | ⟨0, _⟩ => show win1_0.index t (0 : Fin 3) * 1 + 1 * (0 : Fin 1).val = (i 0).val; rw [e0, h0]; simp
  | ⟨1, _⟩ => show win1_0.index t (1 : Fin 3) * 512 + 1 * r.val = (i 1).val; rw [e1, h1]; omega
  | ⟨2, _⟩ => show win1_0.index t (2 : Fin 3) * 1024 + 1 * e.val = (i 2).val; rw [e2, h2]; omega

theorem wvblk1_apply (c : Dev nD) (t : Fin cfg1.N) (a b : Fin 1024) : iblk1 V c 1 t (ix2 a b) = arrWv V c (ix2 a b) := by
  obtain ⟨e0, e1⟩ := idx1_wv t
  show V c main_v6 (((cfg1.win 1).blk t).view.emb (ix2 a b)) = V c main_v6 (ix2 a b)
  refine congrArg _ (funext fun ax => Fin.ext ?_)
  match ax with
  | ⟨0, _⟩ => show win1_1.index t (0 : Fin 2) * 1024 + 1 * a.val = a.val; rw [e0]; omega
  | ⟨1, _⟩ => show win1_1.index t (1 : Fin 2) * 1024 + 1 * b.val = b.val; rw [e1]; omega

theorem woblk1_apply (c : Dev nD) (t : Fin cfg1.N) (a b : Fin 1024) : iblk1 V c 2 t (ix2 a b) = arrWo V c (ix2 a b) := by
  obtain ⟨e0, e1⟩ := idx1_wo t
  show V c main_v8 (((cfg1.win 2).blk t).view.emb (ix2 a b)) = V c main_v8 (ix2 a b)
  refine congrArg _ (funext fun ax => Fin.ext ?_)
  match ax with
  | ⟨0, _⟩ => show win1_2.index t (0 : Fin 2) * 1024 + 1 * a.val = a.val; rw [e0]; omega
  | ⟨1, _⟩ => show win1_2.index t (1 : Fin 2) * 1024 + 1 * b.val = b.val; rw [e1]; omega

/-- The batch's attention matrix at point `t`: batch t / 8, whole. -/
theorem attblk1_apply (c : Dev nD) (t : Fin cfg1.N) (k j : Fin 1024) (i : S4x1024x1024.Idx)
    (h0 : (i 0).val = t.val / 8) (h1 : (i 1).val = k.val) (h2 : (i 2).val = j.val) :
    iblk1 V c 3 t (ix3 (0 : Fin 1) k j) = arrAtt V c i := by
  obtain ⟨e0, e1, e2⟩ := idx1_att t
  show V c main_v9 (((cfg1.win 3).blk t).view.emb (ix3 (0 : Fin 1) k j)) = V c main_v9 i
  refine congrArg _ (funext fun a => Fin.ext ?_)
  match a with
  | ⟨0, _⟩ => show win1_3.index t (0 : Fin 3) * 1 + 1 * (0 : Fin 1).val = (i 0).val; rw [e0, h0]; simp
  | ⟨1, _⟩ => show win1_3.index t (1 : Fin 3) * 1024 + 1 * k.val = (i 1).val; rw [e1, h1]; omega
  | ⟨2, _⟩ => show win1_3.index t (2 : Fin 3) * 1024 + 1 * j.val = (i 2).val; rw [e2, h2]; omega

/-! ## What a point writes back, the cover, the array -/

/-- Point `t` writes back block `t` of `outOf` of the arrays as the region finds them. -/
theorem flushed1_eq (c : Dev nD) (t : Fin cfg1.N) :
    (dat1 V c).flushed 4 t = ((cfg1.win 4).blk t).view.read (Elt Ideal) (outOf (arrX1 V c) (arrWv V c) (arrAtt V c) (arrWo V c)) := by
  show (cfg1.win 4).cut (grid1.coords t) ((dat1 V c).after 4 t) = _
  rw [after1_4]
  unfold out1_4
  rw [View.canon_unit_zero (S := S1x512x1024) hz3']
  simp only [View.ld_unit_zero (S := S1x512x1024) hz3', View.ld_unit_zero (S := S1024x1024) hz2', View.ld_unit_zero (S := S1x1024x1024) hz3']
  obtain ⟨o0, o1, o2⟩ := idx1_o t
  funext y
  have hy0 : (y 0).val < 1 := (y 0).isLt
  have hy1 : (y 1).val < 512 := (y 1).isLt
  have hy2 : (y 2).val < 1024 := (y 2).isLt
  have hN : cfg1.N = 32 := N_1
  have ht := t.isLt
  refine out_block _ _ _ _ (iblk1 V c 0 t) (iblk1 V c 1 t) (iblk1 V c 3 t) (iblk1 V c 2 t) y (((cfg1.win 4).blk t).view.emb y) ?_ ?_ ?_ ?_ ?_
  · intro e'
    refine xblk1_apply V c t (y 1) e' _ ?_ ?_ rfl
    · show win1_4.index t (0 : Fin 3) * 1 + 1 * (y 0).val = t.val / 8; omega
    · show win1_4.index t (1 : Fin 3) * 512 + 1 * (y 1).val = 512 * (t.val % 8) + (y 1).val; omega
  · intro e' j; exact wvblk1_apply V c t e' j
  · intro k e; exact woblk1_apply V c t k e
  · intro k j
    refine attblk1_apply V c t k j _ ?_ rfl rfl
    show win1_4.index t (0 : Fin 3) * 1 + 1 * (y 0).val = t.val / 8; omega
  · show win1_4.index t (2 : Fin 3) * 1024 + 1 * (y 2).val = (y 2).val; omega

/-- An index of the array is in point `t`'s block iff each coordinate is in the block's range on its axis. -/
theorem mem_blk1 (t : Fin cfg1.N) (i : S4x4096x1024.Idx) :
    i ∈ ((cfg1.win 4).blk t).view.set ↔ ∀ a : Fin 3, win1_4.index t a * S1x512x1024.size a ≤ (i a).val ∧ (i a).val < win1_4.index t a * S1x512x1024.size a + S1x512x1024.size a := by
  show i ∈ ((View.whole main_v10).slice (win1_4.rect t)).set ↔ _
  rw [View.set_slice_whole, Rect.mem_set_unit]
  exact Iff.rfl

/-- Every entry of the array is in some point's block: batch b, row l is in the block of point 8b + l / 512. -/
theorem cover1 (i : S4x4096x1024.Idx) : ∃ t : Fin cfg1.N, (cfg1.win 4).flush t = true ∧ i ∈ ((cfg1.win 4).blk t).view.set := by
  have hN : cfg1.N = 32 := N_1
  have hi0 : (i 0).val < 4 := (i 0).isLt
  have hi1 : (i 1).val < 4096 := (i 1).isLt
  have hi2 : (i 2).val < 1024 := (i 2).isLt
  refine ⟨⟨8 * (i 0).val + (i 1).val / 512, by omega⟩, flush1_4 _, ?_⟩
  rw [mem_blk1]
  obtain ⟨o0, o1, o2⟩ := idx1_o ⟨8 * (i 0).val + (i 1).val / 512, by omega⟩
  intro a
  match a with
  | ⟨0, _⟩ => show win1_4.index _ (0 : Fin 3) * 1 ≤ (i 0).val ∧ (i 0).val < win1_4.index _ (0 : Fin 3) * 1 + 1; rw [o0]; dsimp only; omega
  | ⟨1, _⟩ => show win1_4.index _ (1 : Fin 3) * 512 ≤ (i 1).val ∧ (i 1).val < win1_4.index _ (1 : Fin 3) * 512 + 512; rw [o1]; dsimp only; omega
  | ⟨2, _⟩ => show win1_4.index _ (2 : Fin 3) * 1024 ≤ (i 2).val ∧ (i 2).val < win1_4.index _ (2 : Fin 3) * 1024 + 1024; rw [o2]; omega

/-- The result array after the region. -/
theorem final1 (c : Dev nD) : (dat1 V c).arrAt 4 cfg1.N = outOf (arrX1 V c) (arrWv V c) (arrAtt V c) (arrWo V c) :=
  (dat1 V c).arrAt_eq_of_cover 4 _ (fun t _ => flushed1_eq V c t) cover1

end Cert.KernelIdeal.Hand

end
-- ==== Proof.KernelIdeal.HostVals.lean ====
/-
  The weight arrays the host operations prepare before the first region, as terms of the argument arrays: each weight
  matrix transposed (and cast, the identity at the extended reals), the query and key weights side by side; and those
  terms read at an index: a transposed matrix at (a, b) is the matrix at (b, a); the fused matrix's column k < 1024 is
  the query weights' row k, its column 1024 + j the key weights' row j.
-/
import proofs.«124782_j49941879718277_2_alg».proof.Proof.KernelIdeal.Run
import proofs.«124782_j49941879718277_2_alg».proof.Proof.KernelIdeal.PayAcc
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.Tactic
open Idealize.ShloMosaic.Pipeline (Dat)
open Idealize.ShloMosaic.ValueIdx

open Idealize.ShloMosaic.StableHlo

section AnyF
variable {F : FTy → Type} [FloatOps F]
variable (m : (ℓ : Loc nD τ sig) → Buf (Elt F) ℓ) (ρ : Dev nD → PrngReg)

/-- A weight matrix as the kernels take it: transposed, then cast. -/
abbrev hostT (W : S1024x1024.Idx → Elt F .f32) : S1024x1024.Idx → Elt F .bf16 :=
  truncf .bf16 (transpose S1024x1024 [1, 0] W transposes_S1024x1024_S1024x1024_1_0) bitsLt_bf16_f32
/-- The fused query/key weights. -/
abbrev hostWqk (Wq Wk : S1024x1024.Idx → Elt F .f32) : S1024x2048.Idx → Elt F .bf16 :=
  concatenate S1024x2048 1 [⟨S1024x1024, hostT Wq⟩, ⟨S1024x1024, hostT Wk⟩] concatenates_S1024x1024_S1024x1024_S1024x2048_d1

theorem B1_v4 (c : Dev nD) : (B1 m ρ c (Proc.devRef .tc main_v4) : S1024x2048.Idx → Elt F .bf16)
    = hostWqk (m ((c : Thread nD τ).loc main_arg1)) (m ((c : Thread nD τ).loc main_arg2)) := by
  dsimp only [B1, B0, hostOps0]
  after_results
theorem B1_v6 (c : Dev nD) : (B1 m ρ c (Proc.devRef .tc main_v6) : S1024x1024.Idx → Elt F .bf16)
    = hostT (m ((c : Thread nD τ).loc main_arg3)) := by
  dsimp only [B1, B0, hostOps0]
  after_results
theorem B1_v8 (c : Dev nD) : (B1 m ρ c (Proc.devRef .tc main_v8) : S1024x1024.Idx → Elt F .bf16)
    = hostT (m ((c : Thread nD τ).loc main_arg4)) := by
  dsimp only [B1, B0, hostOps0]
  after_results
end AnyF

theorem hostT_apply (W : S1024x1024.Idx → EReal) (a b : Fin 1024) : hostT (F := Ideal) W (ix2 a b) = W (ix2 b a) := by
  show (truncf .bf16 (transpose S1024x1024 [1, 0] W transposes_S1024x1024_S1024x1024_1_0) bitsLt_bf16_f32 : FVec Ideal S1024x1024 .bf16) (ix2 a b) = _
  rw [truncf_apply, transpose_ix2_apply]

theorem hostWqk_q (Wq Wk : S1024x1024.Idx → EReal) (e k : Fin 1024) : hostWqk (F := Ideal) Wq Wk (ix2 e (colQ k)) = Wq (ix2 k e) := by
  show concatenate S1024x2048 1 [⟨S1024x1024, hostT (F := Ideal) Wq⟩, ⟨S1024x1024, hostT (F := Ideal) Wk⟩] concatenates_S1024x1024_S1024x1024_S1024x2048_d1 (ix2 e (colQ k)) = _
  rw [concatenate_pair_apply_left (t := S1024x2048) (s₁ := S1024x1024) (s₂ := S1024x1024) (1 : Fin 2) (hostT (F := Ideal) Wq) (hostT (F := Ideal) Wk)
    concatenates_S1024x1024_S1024x1024_S1024x2048_d1 (ix2 e (colQ k)) rfl (ix2 e k : S1024x1024.Idx) (fun b => by
    match b with
    | ⟨0, _⟩ => rfl
    | ⟨1, _⟩ => rfl)]
  exact hostT_apply Wq e k

theorem hostWqk_k (Wq Wk : S1024x1024.Idx → EReal) (e j : Fin 1024) : hostWqk (F := Ideal) Wq Wk (ix2 e (colK j)) = Wk (ix2 j e) := by
  show concatenate S1024x2048 1 [⟨S1024x1024, hostT (F := Ideal) Wq⟩, ⟨S1024x1024, hostT (F := Ideal) Wk⟩] concatenates_S1024x1024_S1024x1024_S1024x2048_d1 (ix2 e (colK j)) = _
  rw [concatenate_pair_apply_right (t := S1024x2048) (s₁ := S1024x1024) (s₂ := S1024x1024) (1 : Fin 2) (hostT (F := Ideal) Wq) (hostT (F := Ideal) Wk)
    concatenates_S1024x1024_S1024x1024_S1024x2048_d1 (ix2 e (colK j)) rfl rfl (ix2 e j : S1024x1024.Idx) (fun b hb => by
    match b, hb with
    | ⟨0, _⟩, _ => rfl
    | ⟨1, _⟩, hb => exact absurd rfl hb) (by show j.val + 1024 = 1024 + j.val; omega)]
  exact hostT_apply Wk e j

end Cert.KernelIdeal.Hand

end
-- ==== Proof.KernelIdeal.KerValue.lean ====
/-
  The kernel program's result array after the run, as one function of the argument arrays: the last boundary's result
  buffer is what the second region's write-backs leave; that region's inputs are x, the transposed value and output
  weights the host prepared, and the first region's output array — which is the row softmax of the scaled tile sums
  over x and the fused query/key weights.
-/
import proofs.«124782_j49941879718277_2_alg».proof.Proof.KernelIdeal.AttArr
import proofs.«124782_j49941879718277_2_alg».proof.Proof.KernelIdeal.Out
import proofs.«124782_j49941879718277_2_alg».proof.Proof.KernelIdeal.HostVals
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.Tactic
open Idealize.ShloMosaic.Pipeline (Dat)
open Idealize.ShloMosaic.ValueIdx

variable (m : (ℓ : Loc nD τ sig) → Buf (Elt Ideal) ℓ) (ρ : Dev nD → PrngReg)

/-- The result as a function of the five argument arrays. -/
def kernelOut (X : S4x4096x1024.Idx → EReal) (Wq Wk Wv Wo : S1024x1024.Idx → EReal) : S4x4096x1024.Idx → EReal :=
  outOf X (hostT (F := Ideal) Wv) (attOf X (hostWqk (F := Ideal) Wq Wk)) (hostT (F := Ideal) Wo)

theorem entry1_x (c : Dev nD) : arrX (E1 m ρ) c = m ((c : Thread nD τ).loc main_arg0) := B1_arg m ρ c main_arg0 (by decide)
theorem entry1_w (c : Dev nD) : arrW (E1 m ρ) c = hostWqk (F := Ideal) (m ((c : Thread nD τ).loc main_arg1)) (m ((c : Thread nD τ).loc main_arg2)) :=
  B1_v4 m ρ c
theorem entry2_x (c : Dev nD) : arrX1 (E2 m ρ) c = m ((c : Thread nD τ).loc main_arg0) :=
  (B2_arr m ρ c 0).trans (((dat0 (E1 m ρ) c).arrAt_in 0 rfl _).trans ((A_eq0 (E1 m ρ) c 0).trans (B1_arg m ρ c main_arg0 (by decide))))
theorem entry2_wv (c : Dev nD) : arrWv (E2 m ρ) c = hostT (F := Ideal) (m ((c : Thread nD τ).loc main_arg3)) :=
  (B2_of_ne m ρ c main_v6 (by decide)).trans (B1_v6 m ρ c)
theorem entry2_wo (c : Dev nD) : arrWo (E2 m ρ) c = hostT (F := Ideal) (m ((c : Thread nD τ).loc main_arg4)) :=
  (B2_of_ne m ρ c main_v8 (by decide)).trans (B1_v8 m ρ c)
theorem entry2_att (c : Dev nD) : arrAtt (E2 m ρ) c
    = attOf (m ((c : Thread nD τ).loc main_arg0)) (hostWqk (F := Ideal) (m ((c : Thread nD τ).loc main_arg1)) (m ((c : Thread nD τ).loc main_arg2))) := by
  refine (B2_arr m ρ c 2).trans ((final0 (E1 m ρ) c).trans ?_)
  rw [entry1_x, entry1_w]

/-- The last boundary's result buffer. -/
theorem result_eq (c : Dev nD) : B3 m ρ c (Proc.devRef .tc main_v10)
    = kernelOut (m ((c : Thread nD τ).loc main_arg0)) (m ((c : Thread nD τ).loc main_arg1)) (m ((c : Thread nD τ).loc main_arg2))
        (m ((c : Thread nD τ).loc main_arg3)) (m ((c : Thread nD τ).loc main_arg4)) := by
  refine (B3_arr m ρ c 4).trans ((final1 (E2 m ρ) c).trans ?_)
  rw [entry2_x, entry2_wv, entry2_wo, entry2_att]
  rfl

/-- THE KERNEL'S RUN, READ: every weakly fair execution terminates with the result array at `kernelOut` of the argument
    arrays and the argument arrays unchanged. -/
theorem run_value : θ_run defs (onTc (τ := τ) (main (F := Ideal))) ⟨m, fun _ => 0, ρ⟩ (fun r => ∀ c : Dev nD,
      r.2.mem ((c.tc : Thread nD τ).loc main_v10)
        = kernelOut (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v10 (by decide))).trans (result_eq m ρ c),
     (h c _ (mem_uc main_arg0 (by decide))).trans (B3_main_arg0 m ρ c),
     (h c _ (mem_uc main_arg1 (by decide))).trans (B3_main_arg1 m ρ c),
     (h c _ (mem_uc main_arg2 (by decide))).trans (B3_main_arg2 m ρ c),
     (h c _ (mem_uc main_arg3 (by decide))).trans (B3_main_arg3 m ρ c),
     (h c _ (mem_uc main_arg4 (by decide))).trans (B3_main_arg4 m ρ c)⟩) (run_all m ρ)

end Cert.KernelIdeal.Hand

end
-- ==== Proof.Consts.lean ====
/-
  The float constants the two programs spell, as the extended reals their bit patterns denote: the kernel's scale
  2⁻⁵ and the reference's 1024 whose square root it divides by. The square root of 1024 is 32, so dividing by it is
  multiplying by 2⁻⁵, on every extended real.
-/
import Idealize.ShloMosaic.PureOps.Ideal

noncomputable section

namespace Cert.Attn

open Idealize.ShloMosaic

/-- `1024.0` denotes the real 1024. -/
theorem ofBits_1024 : Ideal.ofBits .f32 0x44800000#32 = ((1024 : ℝ) : EReal) := by
  simp [Ideal.ofBits, Ideal.ieee, -EReal.coe_mul]; norm_num

/-- `0.03125` denotes the real 1/32. -/
theorem ofBits_inv32 : Ideal.ofBits .f32 0x3D000000#32 = (((1 : ℝ) / 32 : ℝ) : EReal) := by
  simp [Ideal.ofBits, Ideal.ieee, -EReal.coe_mul]; norm_num

theorem sqrt_1024 : Real.sqrt 1024 = 32 := by
  rw [show (1024 : ℝ) = 32 ^ 2 by norm_num]
  exact Real.sqrt_sq (by norm_num)

/-- Dividing by the square root of the reference's 1024 is multiplying by the kernel's scale, at the infinities too. -/
theorem div_sqrt_eq_scale (x : EReal) :
    Ideal.div x (Ideal.sqrt (Ideal.ofBits .f32 0x44800000#32)) = x * Ideal.ofBits .f32 0x3D000000#32 := by
  rw [ofBits_1024, ofBits_inv32, Ideal.sqrt_coe, if_neg (by norm_num), sqrt_1024]
  exact Ideal.div_coe (by norm_num) x

end Cert.Attn

end
-- ==== Proof.SumTiles.lean ====
/-
  A sum over the 4096 sequence positions is the sum over the four tiles of the sums over each tile's 1024 rows:
  position L is row L mod 1024 of tile L / 1024. Over any commutative monoid (the extended reals included: no
  finiteness is used).
-/
import Mathlib.Algebra.BigOperators.Fin
import Mathlib.Logic.Equiv.Fin.Basic

namespace Cert.Attn

theorem sum_tiles {M : Type*} [AddCommMonoid M] (f : Fin 4096 → M) (row : ℕ → Fin 1024 → Fin 4096)
    (hrow : ∀ (s : ℕ) (l : Fin 1024), s < 4 → (row s l).val = 1024 * s + l.val) :
    ∑ s ∈ Finset.range 4, ∑ l : Fin 1024, f (row s l) = ∑ L : Fin 4096, f L := by
  rw [Finset.sum_range (fun s => ∑ l : Fin 1024, f (row s l))]
  rw [← Equiv.sum_comp (finProdFinEquiv : Fin 4 × Fin 1024 ≃ Fin 4096) f, Fintype.sum_prod_type]
  refine Finset.sum_congr rfl fun s _ => Finset.sum_congr rfl fun l _ => congrArg f (Fin.ext ?_)
  rw [hrow s.val l s.isLt]
  show 1024 * s.val + l.val = l.val + 1024 * s.val
  omega

end Cert.Attn
-- ==== Proof.RefVal.lean ====
/-
  The reference's result, stage by stage, is the kernel's function of the argument arrays. The projections are sums over
  the embedding axis; the scores sum over all 4096 sequence positions, which is the four tiles' sums; dividing by the
  square root of 1024 is multiplying by 2⁻⁵; the softmax stages (maximum from −∞, subtraction, exponential, sum from
  zero, quotient) are the row softmax; the last two products are the same nested sums, the kernel's transposed
  weights read back as the reference's.
-/
import proofs.«124782_j49941879718277_2_alg».proof.Proof.Gen.ReferenceIdeal.Read
import proofs.«124782_j49941879718277_2_alg».proof.Proof.KernelIdeal.KerValue
import proofs.«124782_j49941879718277_2_alg».proof.Proof.Consts
import proofs.«124782_j49941879718277_2_alg».proof.Proof.SumTiles
import Idealize.ShloMosaic.Lib.Pipeline.Value
import Idealize.ShloMosaic.Lib.ValueIdx
import Idealize.ShloMosaic.PureOps.Ideal.Laws

set_option maxRecDepth 16384

noncomputable section

namespace Cert.Attn

open Cert.ReferenceIdeal Cert.ReferenceIdeal.Gen Cert.ReferenceIdeal.Read
open Idealize.ShloMosaic Idealize.ShloMosaic.TcCoe Idealize.SL.Sem
open Idealize.ShloMosaic.ValueIdx
open Cert.KernelIdeal.Hand (outOf attOf tileOf tileRow rowSoftmax rowMax colQ colK hostT hostWqk hostT_apply hostWqk_q hostWqk_k kernelOut)

variable (X : S4x4096x1024.Idx → EReal) (Wq Wk Wv Wo : S1024x1024.Idx → EReal)

/-! ## The generated index functions, at coordinates -/

theorem lidx19_eq (b : Fin 4) (l : Fin 4096) (e k : Fin 1024) : lidx_main_v19 (ix3 b l e) k = ix3 b l k :=
  funext fun a => Fin.ext (by match a with | ⟨0, _⟩ => rfl | ⟨1, _⟩ => rfl | ⟨2, _⟩ => rfl)
theorem ridx19_eq (b : Fin 4) (l : Fin 4096) (e k : Fin 1024) : ridx_main_v19 (ix3 b l e) k = ix2 e k :=
  funext fun a => Fin.ext (by match a with | ⟨0, _⟩ => rfl | ⟨1, _⟩ => rfl)
theorem lidx18_eq (b : Fin 4) (l : Fin 4096) (k j : Fin 1024) : lidx_main_v18 (ix3 b l k) j = ix3 b l j :=
  funext fun a => Fin.ext (by match a with | ⟨0, _⟩ => rfl | ⟨1, _⟩ => rfl | ⟨2, _⟩ => rfl)
theorem ridx18_eq (b : Fin 4) (l : Fin 4096) (k j : Fin 1024) : ridx_main_v18 (ix3 b l k) j = ix3 b k j :=
  funext fun a => Fin.ext (by match a with | ⟨0, _⟩ => rfl | ⟨1, _⟩ => rfl | ⟨2, _⟩ => rfl)
theorem lidx0_eq (b : Fin 4) (l : Fin 4096) (k e : Fin 1024) : lidx_main_v0 (ix3 b l k) e = ix3 b l e :=
  funext fun a => Fin.ext (by match a with | ⟨0, _⟩ => rfl | ⟨1, _⟩ => rfl | ⟨2, _⟩ => rfl)
theorem ridx0_eq (b : Fin 4) (l : Fin 4096) (k e : Fin 1024) : ridx_main_v0 (ix3 b l k) e = ix2 k e :=
  funext fun a => Fin.ext (by match a with | ⟨0, _⟩ => rfl | ⟨1, _⟩ => rfl)
theorem lidx1_eq (b : Fin 4) (l : Fin 4096) (k e : Fin 1024) : lidx_main_v1 (ix3 b l k) e = ix3 b l e :=
  funext fun a => Fin.ext (by match a with | ⟨0, _⟩ => rfl | ⟨1, _⟩ => rfl | ⟨2, _⟩ => rfl)
theorem ridx1_eq (b : Fin 4) (l : Fin 4096) (k e : Fin 1024) : ridx_main_v1 (ix3 b l k) e = ix2 k e :=
  funext fun a => Fin.ext (by match a with | ⟨0, _⟩ => rfl | ⟨1, _⟩ => rfl)
theorem lidx2_eq (b : Fin 4) (l : Fin 4096) (k e : Fin 1024) : lidx_main_v2 (ix3 b l k) e = ix3 b l e :=
  funext fun a => Fin.ext (by match a with | ⟨0, _⟩ => rfl | ⟨1, _⟩ => rfl | ⟨2, _⟩ => rfl)
theorem ridx2_eq (b : Fin 4) (l : Fin 4096) (k e : Fin 1024) : ridx_main_v2 (ix3 b l k) e = ix2 k e :=
  funext fun a => Fin.ext (by match a with | ⟨0, _⟩ => rfl | ⟨1, _⟩ => rfl)
theorem lidx3_eq (b : Fin 4) (k j : Fin 1024) (L : Fin 4096) : lidx_main_v3 (ix3 b k j) L = ix3 b L k :=
  funext fun a => Fin.ext (by match a with | ⟨0, _⟩ => rfl | ⟨1, _⟩ => rfl | ⟨2, _⟩ => rfl)
theorem ridx3_eq (b : Fin 4) (k j : Fin 1024) (L : Fin 4096) : ridx_main_v3 (ix3 b k j) L = ix3 b L j :=
  funext fun a => Fin.ext (by match a with | ⟨0, _⟩ => rfl | ⟨1, _⟩ => rfl | ⟨2, _⟩ => rfl)
theorem idx16_eq (b : Fin 4) (k j : Fin 1024) : idx_main_v16 (ix3 b k j) = ix3 b k (0 : Fin 1) :=
  funext fun a => Fin.ext (by match a with | ⟨0, _⟩ => rfl | ⟨1, _⟩ => rfl | ⟨2, _⟩ => rfl)
theorem idx15_eq (b : Fin 4) (k : Fin 1024) : idx_main_v15 (ix3 b k (0 : Fin 1)) = ix2 b k :=
  funext fun a => Fin.ext (by match a with | ⟨0, _⟩ => rfl | ⟨1, _⟩ => rfl)
theorem idx14_eq (b : Fin 4) (k j : Fin 1024) : idx_main_v14 (ix2 b k) j = ix3 b k j :=
  funext fun a => Fin.ext (by match a with | ⟨0, _⟩ => rfl | ⟨1, _⟩ => rfl | ⟨2, _⟩ => rfl)
theorem idx11_eq (b : Fin 4) (k j : Fin 1024) : idx_main_v11 (ix3 b k j) = ix3 b k (0 : Fin 1) :=
  funext fun a => Fin.ext (by match a with | ⟨0, _⟩ => rfl | ⟨1, _⟩ => rfl | ⟨2, _⟩ => rfl)
theorem idx10_eq (b : Fin 4) (k : Fin 1024) : idx_main_v10 (ix3 b k (0 : Fin 1)) = ix2 b k :=
  funext fun a => Fin.ext (by match a with | ⟨0, _⟩ => rfl | ⟨1, _⟩ => rfl)

/-! ## The projections and the scores -/

theorem q_apply (b : Fin 4) (L : Fin 4096) (k : Fin 1024) :
    val_main_v0 (F := Ideal) X Wq (ix3 b L k) = ∑ e : Fin 1024, X (ix3 b L e) * Wq (ix2 k e) :=
  (val_main_v0_apply X Wq _).trans (Finset.sum_congr rfl fun e _ => by rw [lidx0_eq, ridx0_eq])
theorem k_apply (b : Fin 4) (L : Fin 4096) (j : Fin 1024) :
    val_main_v1 (F := Ideal) X Wk (ix3 b L j) = ∑ e : Fin 1024, X (ix3 b L e) * Wk (ix2 j e) :=
  (val_main_v1_apply X Wk _).trans (Finset.sum_congr rfl fun e _ => by rw [lidx1_eq, ridx1_eq])
theorem v_apply (b : Fin 4) (L : Fin 4096) (j : Fin 1024) :
    val_main_v2 (F := Ideal) X Wv (ix3 b L j) = ∑ e : Fin 1024, X (ix3 b L e) * Wv (ix2 j e) :=
  (val_main_v2_apply X Wv _).trans (Finset.sum_congr rfl fun e _ => by rw [lidx2_eq, ridx2_eq])

theorem scores_apply (b : Fin 4) (k j : Fin 1024) :
    val_main_v3 (F := Ideal) X Wq Wk (ix3 b k j)
      = ∑ L : Fin 4096, val_main_v0 (F := Ideal) X Wq (ix3 b L k) * val_main_v1 (F := Ideal) X Wk (ix3 b L j) :=
  (val_main_v3_apply X Wq Wk _).trans (Finset.sum_congr rfl fun L _ => by rw [lidx3_eq, ridx3_eq])

/-- One tile of the kernel's sum is that tile's part of the reference's sum over the sequence. -/
theorem tile_eq (b : Fin 4) (s : ℕ) (k j : Fin 1024) :
    tileOf X (hostWqk (F := Ideal) Wq Wk) b s k j
      = ∑ l : Fin 1024, val_main_v0 (F := Ideal) X Wq (ix3 b (tileRow s l) k) * val_main_v1 (F := Ideal) X Wk (ix3 b (tileRow s l) j) := by
  unfold tileOf
  refine Finset.sum_congr rfl fun l _ => ?_
  rw [q_apply, k_apply]
  refine congrArg₂ (· * ·) (Finset.sum_congr rfl fun e _ => ?_) (Finset.sum_congr rfl fun e _ => ?_)
  · rw [hostWqk_q]
  · rw [hostWqk_k]

/-- The four tiles make the whole sequence. -/
theorem tiles_eq_scores (b : Fin 4) (k j : Fin 1024) :
    ∑ s ∈ Finset.range 4, tileOf X (hostWqk (F := Ideal) Wq Wk) b s k j = val_main_v3 (F := Ideal) X Wq Wk (ix3 b k j) := by
  rw [scores_apply]
  refine (Finset.sum_congr rfl fun s _ => tile_eq X Wq Wk b s k j).trans ?_
  exact sum_tiles (fun L : Fin 4096 => val_main_v0 (F := Ideal) X Wq (ix3 b L k) * val_main_v1 (F := Ideal) X Wk (ix3 b L j)) tileRow
    (fun s l hs => by show 1024 * (s % 4) + l.val = 1024 * s + l.val; rw [Nat.mod_eq_of_lt hs])

/-- The scaled scores. -/
theorem scaled_scores (b : Fin 4) (k j : Fin 1024) :
    val_main_v6 (F := Ideal) X Wq Wk (ix3 b k j)
      = (0 + ∑ s ∈ Finset.range 4, tileOf X (hostWqk (F := Ideal) Wq Wk) b s k j) * Ideal.ofBits .f32 0x3D000000#32 := by
  rw [val_main_v6_apply, val_main_v5_apply, val_main_v4_apply, val_main_cst_apply]
  simp only [Ideal.hostDivf_def, Ideal.hostUnary_sqrt_def, Ideal.ofBits_def]
  rw [div_sqrt_eq_scale, zero_add, tiles_eq_scores]

/-! ## The softmax stages -/

/-- A reduced (batch, row) index with the column put back. -/
theorem lift_bk (h : S4x1024x1024.Reduces [2] S4x1024) (b : Fin 4) (k : Fin 1024) (j : Fin (S4x1024x1024.size 2)) :
    h.lift (ix2 b k) j = ix3 b k (⟨j.val, j.isLt⟩ : Fin 1024) := by
  funext c; apply Fin.ext
  fin_cases c <;> rfl

theorem max_fun_eq : (FloatOps.maximumf : Ideal .f32 → Ideal .f32 → Ideal .f32) = max := rfl

/-- The reference's running maximum of a row. -/
theorem rowmax_ref (b : Fin 4) (k j : Fin 1024) :
    val_main_v11 (F := Ideal) X Wq Wk (ix3 b k j) = rowMax (fun j' => val_main_v6 (F := Ideal) X Wq Wk (ix3 b k j')) := by
  rw [val_main_v11_apply, idx11_eq, val_main_v10_apply, idx10_eq, val_main_v9_apply, val_main_v8_apply, val_main_cst_1_apply]
  unfold val_main_v7 rowMax
  have hR : S4x1024x1024.Reduces [2] S4x1024 := by decide
  have hred := Host.reduce_eq_fold_single (FloatOps.maximumf : Ideal .f32 → Ideal .f32 → Ideal .f32)
    (val_main_v6 (F := Ideal) X Wq Wk) (val_main_cst_0 (F := Ideal)) reducesTo_S4x1024x1024_S4x1024_d2 hR h_S_ (ix2 b k)
  have hf : (val_main_v6 (F := Ideal) X Wq Wk ∘ hR.lift (ix2 b k))
      = fun j' : Fin 1024 => val_main_v6 (F := Ideal) X Wq Wk (ix3 b k j') :=
    funext fun j' => congrArg (val_main_v6 (F := Ideal) X Wq Wk) (lift_bk hR b k j')
  exact congrArg (max (Ideal.ofBits .f32 0xFF800000#32))
    (hred.trans (congrArg (fun f => Finset.fold max (Ideal.ofBits .f32 0xFF800000#32) f (Finset.univ : Finset (Fin 1024))) hf))

theorem exp_ref (b : Fin 4) (k j : Fin 1024) :
    val_main_v13 (F := Ideal) X Wq Wk (ix3 b k j)
      = Ideal.exp (val_main_v6 (F := Ideal) X Wq Wk (ix3 b k j) - rowMax (fun j' => val_main_v6 (F := Ideal) X Wq Wk (ix3 b k j'))) := by
  rw [val_main_v13_apply, val_main_v12_apply, rowmax_ref]
  simp only [Ideal.hostUnary_exp_def, Ideal.subf_def]

/-- The reference's attention entries are the row softmax of the scaled scores. -/
theorem softmax_ref (b : Fin 4) (k j : Fin 1024) :
    val_main_v17 (F := Ideal) X Wq Wk (ix3 b k j) = rowSoftmax (fun j' => val_main_v6 (F := Ideal) X Wq Wk (ix3 b k j')) j := by
  rw [val_main_v17_apply, val_main_v16_apply, idx16_eq, val_main_v15_apply, idx15_eq, val_main_v14_apply, val_main_cst_2_apply, exp_ref]
  unfold rowSoftmax
  simp only [Ideal.hostDivf_def, Ideal.ofBits_def, Ideal.ofBits_zero_f32, zero_add]
  refine congrArg (Ideal.div _) (Finset.sum_congr rfl fun j' _ => ?_)
  rw [idx14_eq, exp_ref]

/-- … which is the kernel's attention array. -/
theorem att_ref (b : Fin 4) (k j : Fin 1024) :
    val_main_v17 (F := Ideal) X Wq Wk (ix3 b k j) = attOf X (hostWqk (F := Ideal) Wq Wk) (ix3 b k j) := by
  rw [softmax_ref]
  unfold attOf
  exact congrArg (fun f => rowSoftmax f j) (funext fun j' => scaled_scores X Wq Wk b k j')

/-! ## The result -/

theorem ref_eq_kernel : val_main_v19 (F := Ideal) X Wq Wk Wv Wo = kernelOut X Wq Wk Wv Wo := by
  funext i
  obtain ⟨b, l, e, rfl⟩ : ∃ (b : Fin 4) (l : Fin 4096) (e : Fin 1024), i = ix3 b l e := ⟨i 0, i 1, i 2, eq_ix3 i⟩
  rw [val_main_v19_apply]
  unfold kernelOut outOf
  refine Finset.sum_congr rfl fun k _ => ?_
  rw [lidx19_eq, ridx19_eq, hostT_apply, val_main_v18_apply]
  refine congrArg (· * Wo (ix2 e k)) (Finset.sum_congr rfl fun j _ => ?_)
  rw [lidx18_eq, ridx18_eq, att_ref, v_apply]
  refine congrArg (· * _) (Finset.sum_congr rfl fun e' _ => ?_)
  rw [hostT_apply]

end Cert.Attn

end
-- ==== Proof.lean ====
/-
  Feature-axial multi-head self-attention, B = 4, L = 4096, E = K = V = 1024: a two-region Pallas kernel against its jnp
  reference, equal over the extended reals.

  Both programs compute, per batch b,
      q = x·Wqᵀ, k = x·Wkᵀ, v = x·Wvᵀ   (sums over the embedding axis),
      s[κ, j] = Σ_l q[l, κ]·k[l, j]       (a sum over all 4096 sequence positions),
      a = softmax over j of s/√1024,
      out[l, e] = Σ_κ (Σ_j v[l, j]·a[κ, j])·Wo[e, κ].
  The kernel's first region accumulates s tile by tile (four tiles of 1024 positions, the accumulator zeroed at a
  batch's first tile) and on the last tile stores the row softmax of the accumulator times 2⁻⁵; its second region
  computes out one [512, 1024] row tile at a time from the transposed weights the host prepared. The two agree because
  a sum over 4096 positions is the sum over the four tiles of the tiles' sums (commutativity and associativity of +,
  which hold on the extended reals), √1024 = 32 so that dividing by it is multiplying by 2⁻⁵ at every extended real,
  and every other stage is the same operation on both sides, read at an index. No distributivity is used, so the
  finiteness precondition is never opened.

  The frames (every weakly fair execution terminates, nothing faults, the arguments end unchanged): for the reference
  its generated run; for the kernel program, at the word level and at the extended reals alike, one run over the host
  operations and the two regions in which every unscoped buffer ends at contents named by a fold over the program
  (proof/Proof/<Program>/Run.lean). The idealization rewrote nothing, so `preserves` is trivial.
-/
import proofs.«124782_j49941879718277_2_alg».proof.Defs
import proofs.«124782_j49941879718277_2_alg».proof.Proof.Gen.Kernel
import proofs.«124782_j49941879718277_2_alg».proof.Proof.Gen.Kernel.Skeleton
import proofs.«124782_j49941879718277_2_alg».proof.Proof.Gen.Kernel.Launch
import proofs.«124782_j49941879718277_2_alg».proof.Proof.Gen.Kernel.Regions
import proofs.«124782_j49941879718277_2_alg».proof.Proof.Gen.Kernel.Points
import proofs.«124782_j49941879718277_2_alg».proof.Proof.Gen.KernelIdeal
import proofs.«124782_j49941879718277_2_alg».proof.Proof.Gen.KernelIdeal.Skeleton
import proofs.«124782_j49941879718277_2_alg».proof.Proof.Gen.KernelIdeal.Launch
import proofs.«124782_j49941879718277_2_alg».proof.Proof.Gen.KernelIdeal.Regions
import proofs.«124782_j49941879718277_2_alg».proof.Proof.Gen.KernelIdeal.Points
import proofs.«124782_j49941879718277_2_alg».proof.Proof.Gen.ReferenceIdeal
import proofs.«124782_j49941879718277_2_alg».proof.Proof.Gen.ReferenceIdeal.Run
import proofs.«124782_j49941879718277_2_alg».proof.Proof.Gen.ReferenceIdeal.Read
import proofs.«124782_j49941879718277_2_alg».proof.Proof.Gen.Pre_finite_inputs
import proofs.«124782_j49941879718277_2_alg».proof.Proof.Kernel.Run
import proofs.«124782_j49941879718277_2_alg».proof.Proof.KernelIdeal.KerValue
import proofs.«124782_j49941879718277_2_alg».proof.Proof.RefVal
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Hand.frame (F := Bits) m ρ
/-- The same program read at the extended reals. -/
theorem frame_kernelIdeal : Cert.frame_KernelIdeal := fun m ρ _ => Cert.KernelIdeal.Hand.frame (F := Ideal) m ρ
/-- The reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- At the extended reals the kernel's result array ends at `kernelOut` of the argument arrays, and so does the
    reference's, of arguments that agree. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.Attn.ref_eq_kernel,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
